-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x128x16 : Shape := ⟨3, ![512, 128, 16]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x128x16 : S_.BroadcastsInDim S512x128x16 (![] : Fin 0 → Fin S512x128x16.rank)
  reducesTo_S512x128x16_S_d0_1_2 : S512x128x16.ReducesTo [0, 1, 2] S_

variable [Facts]

def fn {F : FTy → Type} [FloatOps F] (main_arg0 : FVec F S256x512 .f32) (main_arg1 : FVec F S512x128x16 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x128x16 .f32 := Host.absf main_arg1
  let main_cst_0 : FVec F S_ .f32 := constant S_ .f32 0x7F800000#32
  let main_v5 : FVec F S512x128x16 .f32 := broadcastInDim S512x128x16 ![] bcast_S_S512x128x16 main_cst_0
  let main_v6 : IVec S512x128x16 1 := cmpf .olt main_v4 main_v5
  let main_c_1 : IVec S_ 1 := constantI S_ 1 1#1
  let main_v7 : IVec S_ 1 := (fun x v => Host.reduce IntOp.andi x v reducesTo_S512x128x16_S_d0_1_2 h_S_) main_v6 main_c_1
  let main_v8 : IVec S_ 1 := andi main_v3 main_v7
  main_v8
-- ==== Kernel.lean ====
abbrev S256x512 : Shape := ⟨2, ![256, 512]⟩
abbrev S512x128x16 : Shape := ⟨3, ![512, 128, 16]⟩
abbrev S512x16x128 : Shape := ⟨3, ![512, 16, 128]⟩
abbrev S512x2048 : Shape := ⟨2, ![512, 2048]⟩
abbrev S256x2048 : Shape := ⟨2, ![256, 2048]⟩
abbrev S256x16x128 : Shape := ⟨3, ![256, 16, 128]⟩
abbrev S256x128 : Shape := ⟨2, ![256, 128]⟩
abbrev S128x16x128 : Shape := ⟨3, ![128, 16, 128]⟩
abbrev S128x128 : Shape := ⟨2, ![128, 128]⟩
abbrev S8x16x128 : Shape := ⟨3, ![8, 16, 128]⟩
abbrev S8x128x128 : Shape := ⟨3, ![8, 128, 128]⟩
abbrev S128x1x128 : Shape := ⟨3, ![128, 1, 128]⟩
abbrev S1x128x128 : Shape := ⟨3, ![1, 128, 128]⟩
abbrev S8x1x128 : Shape := ⟨3, ![8, 1, 128]⟩
abbrev S8x128 : Shape := ⟨2, ![8, 128]⟩
abbrev S256x640 : Shape := ⟨2, ![256, 640]⟩

abbrev nBuf : Space → Nat
  | .hbm => 8
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S512x128x16, .f32⟩
  | .hbm, ⟨2, _⟩ => ⟨S512x16x128, .f32⟩
  | .hbm, ⟨3, _⟩ => ⟨S512x2048, .f32⟩
  | .hbm, ⟨4, _⟩ => ⟨S256x2048, .f32⟩
  | .hbm, ⟨5, _⟩ => ⟨S256x16x128, .f32⟩
  | .hbm, ⟨6, _⟩ => ⟨S256x128, .f32⟩
  | .hbm, ⟨7, _⟩ => ⟨S256x640, .f32⟩
  | .local _ .vmem, ⟨0, _⟩ => ⟨S256x512, .f32⟩
  | .local _ .vmem, ⟨1, _⟩ => ⟨S512x2048, .f32⟩
  | .local _ .vmem, ⟨2, _⟩ => ⟨S256x2048, .f32⟩
  | .local _ .vmem, ⟨3, _⟩ => ⟨S256x16x128, .f32⟩
  | .local _ .vmem, ⟨4, _⟩ => ⟨S128x16x128, .f32⟩
  | .local _ .vmem, ⟨5, _⟩ => ⟨S128x16x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_scratch0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![2], ![false]⟩

@[reducible] def k1_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k1_mult1 (k1_t1 : Fin k1_t1_loop.trips) : BitVec 32 :=
  let c0_i32_11 : BitVec 32 := 0#32
  let c0_i32 : BitVec 32 := 0#32
  let c1_i32 : BitVec 32 := 1#32
  let arg5 : BitVec 32 := Scf.iv c0_i32 c1_i32 k1_t1
  let c1_i32_10 : BitVec 32 := 1#32
  let v11 : BitVec 32 := Scalar.muli arg5 c1_i32_10
  let v12 : BitVec 32 := Scalar.addi c0_i32_11 v11
  let c8_i32 : BitVec 32 := 8#32
  let v13 : BitVec 32 := Scalar.muli v12 c8_i32
  v13
def k1_off1 (k1_t1 : Fin k1_t1_loop.trips) : Fin 3 → Nat :=
  let c0_i32_11 : BitVec 32 := 0#32
  let c0_i32 : BitVec 32 := 0#32
  let c1_i32 : BitVec 32 := 1#32
  let arg5 : BitVec 32 := Scf.iv c0_i32 c1_i32 k1_t1
  let c1_i32_10 : BitVec 32 := 1#32
  let v11 : BitVec 32 := Scalar.muli arg5 c1_i32_10
  let v12 : BitVec 32 := Scalar.addi c0_i32_11 v11
  let c8_i32 : BitVec 32 := 8#32
  let v13 : BitVec 32 := Scalar.muli v12 c8_i32
  let v14 : BitVec 32 := v13
  let v15 : Index := Scalar.indexCast v14
  let c0_12 : Index := 0#32
  let c0_13 : Index := 0#32
  ![v15.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x128x16_S512x16x128_0_2_1 : S512x128x16.Transposes [0, 2, 1] S512x16x128
  shapeCasts_S512x16x128_S512x2048 : S512x16x128.ShapeCasts S512x2048
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x16x128 : S256x2048.ShapeCasts S256x16x128
  inb_S128x16x128_S128x16x128_0_0_0 : ∀ a, (![0, 0, 0] : Fin 3 → Nat) a + S128x16x128.size a ≤ S128x16x128.size a
  h_S128x16x128 : 0 < S128x16x128.numel
  shapeCasts_S128x16x128_S128x16x128 : S128x16x128.ShapeCasts S128x16x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S8x16x128 : 0 < S8x16x128.numel
  shapeCasts_S8x16x128_S8x16x128 : S8x16x128.ShapeCasts S8x16x128
  slices_S128x16x128_o0_0_0_S128x1x128 : S128x16x128.Slices ![0, 0, 0] S128x1x128
  shapeCasts_S128x1x128_S128x128 : S128x1x128.ShapeCasts S128x128
  shapeCasts_S128x128_S1x128x128 : S128x128.ShapeCasts S1x128x128
  slices_S8x16x128_o0_0_0_S8x1x128 : S8x16x128.Slices ![0, 0, 0] S8x1x128
  shapeCasts_S8x1x128_S8x128 : S8x1x128.ShapeCasts S8x128
  shapeCasts_S8x128_S8x1x128 : S8x128.ShapeCasts S8x1x128
  broadcasts_S1x128x128_S8x128x128 : S1x128x128.Broadcasts S8x128x128
  broadcasts_S8x1x128_S8x128x128 : S8x1x128.Broadcasts S8x128x128
  slices_S128x16x128_o0_1_0_S128x1x128 : S128x16x128.Slices ![0, 1, 0] S128x1x128
  slices_S8x16x128_o0_1_0_S8x1x128 : S8x16x128.Slices ![0, 1, 0] S8x1x128
  slices_S128x16x128_o0_2_0_S128x1x128 : S128x16x128.Slices ![0, 2, 0] S128x1x128
  slices_S8x16x128_o0_2_0_S8x1x128 : S8x16x128.Slices ![0, 2, 0] S8x1x128
  slices_S128x16x128_o0_3_0_S128x1x128 : S128x16x128.Slices ![0, 3, 0] S128x1x128
  slices_S8x16x128_o0_3_0_S8x1x128 : S8x16x128.Slices ![0, 3, 0] S8x1x128
  slices_S128x16x128_o0_4_0_S128x1x128 : S128x16x128.Slices ![0, 4, 0] S128x1x128
  slices_S8x16x128_o0_4_0_S8x1x128 : S8x16x128.Slices ![0, 4, 0] S8x1x128
  slices_S128x16x128_o0_5_0_S128x1x128 : S128x16x128.Slices ![0, 5, 0] S128x1x128
  slices_S8x16x128_o0_5_0_S8x1x128 : S8x16x128.Slices ![0, 5, 0] S8x1x128
  slices_S128x16x128_o0_6_0_S128x1x128 : S128x16x128.Slices ![0, 6, 0] S128x1x128
  slices_S8x16x128_o0_6_0_S8x1x128 : S8x16x128.Slices ![0, 6, 0] S8x1x128
  slices_S128x16x128_o0_7_0_S128x1x128 : S128x16x128.Slices ![0, 7, 0] S128x1x128
  slices_S8x16x128_o0_7_0_S8x1x128 : S8x16x128.Slices ![0, 7, 0] S8x1x128
  slices_S128x16x128_o0_8_0_S128x1x128 : S128x16x128.Slices ![0, 8, 0] S128x1x128
  slices_S8x16x128_o0_8_0_S8x1x128 : S8x16x128.Slices ![0, 8, 0] S8x1x128
  slices_S128x16x128_o0_9_0_S128x1x128 : S128x16x128.Slices ![0, 9, 0] S128x1x128
  slices_S8x16x128_o0_9_0_S8x1x128 : S8x16x128.Slices ![0, 9, 0] S8x1x128
  slices_S128x16x128_o0_10_0_S128x1x128 : S128x16x128.Slices ![0, 10, 0] S128x1x128
  slices_S8x16x128_o0_10_0_S8x1x128 : S8x16x128.Slices ![0, 10, 0] S8x1x128
  slices_S128x16x128_o0_11_0_S128x1x128 : S128x16x128.Slices ![0, 11, 0] S128x1x128
  slices_S8x16x128_o0_11_0_S8x1x128 : S8x16x128.Slices ![0, 11, 0] S8x1x128
  slices_S128x16x128_o0_12_0_S128x1x128 : S128x16x128.Slices ![0, 12, 0] S128x1x128
  slices_S8x16x128_o0_12_0_S8x1x128 : S8x16x128.Slices ![0, 12, 0] S8x1x128
  slices_S128x16x128_o0_13_0_S128x1x128 : S128x16x128.Slices ![0, 13, 0] S128x1x128
  slices_S8x16x128_o0_13_0_S8x1x128 : S8x16x128.Slices ![0, 13, 0] S8x1x128
  slices_S128x16x128_o0_14_0_S128x1x128 : S128x16x128.Slices ![0, 14, 0] S128x1x128
  slices_S8x16x128_o0_14_0_S8x1x128 : S8x16x128.Slices ![0, 14, 0] S8x1x128
  slices_S128x16x128_o0_15_0_S128x1x128 : S128x16x128.Slices ![0, 15, 0] S128x1x128
  slices_S8x16x128_o0_15_0_S8x1x128 : S8x16x128.Slices ![0, 15, 0] S8x1x128
  slices_S8x128x128_o0_0_0_S1x128x128 : S8x128x128.Slices ![0, 0, 0] S1x128x128
  shapeCasts_S1x128x128_S128x128 : S1x128x128.ShapeCasts S128x128
  slices_S8x128x128_o1_0_0_S1x128x128 : S8x128x128.Slices ![1, 0, 0] S1x128x128
  slices_S8x128x128_o2_0_0_S1x128x128 : S8x128x128.Slices ![2, 0, 0] S1x128x128
  slices_S8x128x128_o3_0_0_S1x128x128 : S8x128x128.Slices ![3, 0, 0] S1x128x128
  slices_S8x128x128_o4_0_0_S1x128x128 : S8x128x128.Slices ![4, 0, 0] S1x128x128
  slices_S8x128x128_o5_0_0_S1x128x128 : S8x128x128.Slices ![5, 0, 0] S1x128x128
  slices_S8x128x128_o6_0_0_S1x128x128 : S8x128x128.Slices ![6, 0, 0] S1x128x128
  slices_S8x128x128_o7_0_0_S1x128x128 : S8x128x128.Slices ![7, 0, 0] S1x128x128
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .f32 = 32 ∨ (Rect.block (s := S256x2048) S256x2048.size (cc0_transform_2 i) (hinb0_2 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S8x16x128.size a ≤ S256x16x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x16x128.size a ≤ S256x16x128.size a
  hwx1_0 : ∀ i : grid1.Coords, EltTy.bits .f32 = 32 ∨ (Rect.block (s := S256x16x128) S256x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x16x128.size a ≤ S256x16x128.size a
  hwx1_1 : ∀ i : grid1.Coords, EltTy.bits .f32 = 32 ∨ (Rect.block (s := S256x16x128) S128x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S256x128.size a
  hwx1_2 : ∀ i : grid1.Coords, EltTy.bits .f32 = 32 ∨ (Rect.block (s := S256x128) S128x128.size (cc1_transform_2 i) (hinb1_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x16x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x512 : Shape := ⟨2, ![256, 512]⟩
abbrev S512x128x16 : Shape := ⟨3, ![512, 128, 16]⟩
abbrev S512x2048 : Shape := ⟨2, ![512, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x128 : Shape := ⟨2, ![256, 128]⟩
abbrev S256x640 : Shape := ⟨2, ![256, 640]⟩

abbrev nBuf : Space → Nat
  | .hbm => 21
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x128x16, .f32⟩
  | .hbm, ⟨2, _⟩ => ⟨S512x2048, .f32⟩
  | .hbm, ⟨3, _⟩ => ⟨S256x2048, .f32⟩
  | .hbm, ⟨4, _⟩ => ⟨S256x128x16, .f32⟩
  | .hbm, ⟨5, _⟩ => ⟨S1x256x128x16, .f32⟩
  | .hbm, ⟨6, _⟩ => ⟨S256x1x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S256x256x128x16, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x640, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x128x16_S512x2048 : S512x128x16.ShapeCasts S512x2048
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  reducesTo_S256x256x128_S256x128_d0 : S256x256x128.ReducesTo [0] S256x128
  bcast_S_S256x128 : S_.BroadcastsInDim S256x128 (![] : Fin 0 → Fin S256x128.rank)
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

class Facts : Prop extends Facts₀ where

variable [Facts]
-- ==== Proof.Kernel.R0.lean ====
/-
  Region 0 (the whole-array matrix product) at the contents `V` it is entered from: each window's block,
  what the body leaves in the output window's buffer, the body's triple, the proof data and the body obligation.
-/
import proofs.«130838_j5806795784869_2_alg».proof.Proof.Gen.Kernel.Launch
import proofs.«130838_j5806795784869_2_alg».proof.Proof.Gen.Kernel.Skeleton
import proofs.«130838_j5806795784869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x512 := Rect.unit (s := S256x512) ![0, 0] S256x512.size inb_S256x512_S256x512_0_0
abbrev r0_t : Rect S512x2048 := Rect.unit (s := S512x2048) ![0, 0] S512x2048.size inb_S512x2048_S512x2048_0_0
abbrev r0_o : Rect S256x2048 := Rect.unit (s := S256x2048) ![0, 0] S256x2048.size inb_S256x2048_S256x2048_0_0

/-- The output window's buffer after the body: the product of the two input blocks, stored whole. -/
def out0_2 (x0 : Vec F S256x512 .f32) (x1 : Vec F S512x2048 .f32) : Vec F S256x2048 .f32 :=
  View.canon [⟨r0_o, k0_pay1 (View.ld x0 r0_x) (View.ld x1 r0_t)⟩]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole buffer, so it covers it. -/
theorem cover0_2 (p0 : Vec F S256x2048 .f32) (y : S256x2048.Idx) :
    ∃ pc ∈ ([⟨r0_o, p0⟩] : List (View.Piece (Elt F) S256x2048 .f32)), y ∈ pc.1.set :=
  View.cover_of_tiled [⟨r0_o, p0⟩] S256x2048.size (by rfl) y

set_option maxHeartbeats 1000000 in
/-- The body on whole staging memrefs, the two inputs' at read contents and the output's at anything, runs to the
    continuation holding the inputs' as they were and the output's at the product `out0_2` of the inputs'. The body
    reads the output buffer once before its store; the value read is not used. -/
theorem sound_kernel0 (c : Dev nD) (E : Set ℕ) (i : grid0.Coords)
    (arg1 : Memref sig .tc .vmem S256x512 .f32) (harg1 : arg1.IsWhole)
    (arg2 : Memref sig .tc .vmem S512x2048 .f32) (harg2 : arg2.IsWhole)
    (arg3 : Memref sig .tc .vmem S256x2048 .f32) (harg3 : arg3.IsWhole)
    (x0 : Vec F S256x512 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, %hf2, H2⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1.lean ====
/-
  Region 1 (the pairwise kernel) at the contents `V` it is entered from: each window's block; the body run once on
  symbolic whole memrefs, the pieces its stores leave in the output buffer being what the run finds; the proof data
  (the two input windows read one array, each at half the share; the accumulator lives in a scratch buffer that the
  body zeroes before it reads it, so nothing is carried between grid points); the body obligation.
-/
import proofs.«130838_j5806795784869_2_alg».proof.Proof.Gen.Kernel.Launch
import proofs.«130838_j5806795784869_2_alg».proof.Proof.Gen.Kernel.Skeleton
import proofs.«130838_j5806795784869_2_alg».proof.Proof.Gen.Kernel.Loops
import proofs.«130838_j5806795784869_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (window 0 is
    fetched at the first point only and its block index never moves; window 1 is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of the output window, through which its contents are stated (the choice does not matter). -/
abbrev VO1_2 : View sig .tc .vmem S128x128 .f32 := (Memref.whole cc1_stg2_0 : Memref sig .tc .vmem S128x128 .f32).view
/-- Each window's current staging memref at point `t`, and its wholeness. -/
abbrev ms1_0 (t : Fin cfg1.N) : Memref sig .tc .vmem S256x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
/-- The accumulator's scratch buffer. -/
abbrev msS : Memref sig .tc .vmem S128x128 .f32 := Memref.whole cc1_scratch0
abbrev hsS : (msS).IsWhole := Memref.isWhole_whole _

set_option maxHeartbeats 4000000 in
/-- What the body's stores leave in the output window's staging memref, as pieces (last first), WITH the proof that on
    whole memrefs — the two inputs' at their contents, the output's and the scratch's at anything — the body runs to the
    continuation holding the inputs' as they were, the output's buffer with its pieces written and the scratch at
    something: the counted loop is gone through by its invariant, once, over a symbolic trip. -/
noncomputable def kernelRun1 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) :
    { L3 : List (View.Piece (Elt F) S128x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc1__pairwise_kernel i arg1 harg1 arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _; iexists _; isplitr
    swap; · iexact H4
    ipureintro; rfl

/-- The pieces tile the output block, so they cover it. -/
theorem cover1_2 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) (y : S128x128.Idx) :
    ∃ pc ∈ (kernelRun1 c i arg1 harg1 arg2 harg2 arg3 harg3 arg4 harg4 x0 x1).1, y ∈ pc.1.set :=
  View.cover_of_tiledL (kernelRun1 c i arg1 harg1 arg2 harg2 arg3 harg3 arg4 harg4 x0 x1).1 S128x128.size (by sl_kernel_rfl) y

/-- What the body leaves in the output window's staging buffer: its pieces read back over junk. -/
def outOf1 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) : Vec F S128x128 .f32 :=
  VO1_2.read (Elt F) (VO1_2.writes (Elt F) VO1_2.junk (kernelRun1 c i arg1 harg1 arg2 harg2 arg3 harg3 arg4 harg4 x0 x1).1)

/-- The output window's buffer after the body at point `t`: the run at the point's memrefs and input blocks. -/
def out1_2 (c : Dev nD) (t : Fin cfg1.N) : Vec F S128x128 .f32 :=
  outOf1 c (grid1.coords t) (ms1_0 t) (hs1_0 t) (ms1_1 t) (hs1_1 t) (ms1_2 t) (hs1_2 t) msS hsS (iblk1 V c 0 t) (iblk1 V c 1 t)

/-! ## The pipeline's proof data -/

/-- The proof data of region 1 on core `c`: the two input windows read one array, each at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
/-- The body at any point: the inputs' memrefs hold their blocks, the output's anything; the scratch buffer comes out
    of the invariant's scoped rest at some contents and goes back at some contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl]
  unfold Pipeline.ΦA
  rw [scopedRest1_eq]
  unfold out1_2 outOf1
  iintro ⟨⟨⟨Hs0, Hs1, Hs2, Hscr⟩, Hp⟩, Ho, ⟨%d0, H0⟩, ⟨%d1, H1⟩, ⟨%d2, H2⟩⟩
  iapply ((kernelRun1 c (grid1.coords t) (ms1_0 t) (hs1_0 t) (ms1_1 t) (hs1_1 t) (ms1_2 t) (hs1_2 t) msS hsS (iblk1 V c 0 t) (iblk1 V c 1 t)).2 Set.univ _)
  isplitl [H0]; · iexact H0
  isplitl [H1]; · iexact H1
  isplitl [H2]; · iexists _; iexact H2
  isplitl [Hscr]
  · iapply (BIBase.Entails.of_eq (Memref.IsWhole.exists_owns_eq (c := (c : Thread nD τ)) hsS fullShare).symm)
    iexact Hscr
  iintro ⟨H0, H1, ⟨%e2, H2⟩, Hscr⟩
  isplitl [Hs0 Hs1 Hs2 Hscr Hp]
  · isplitr [Hp]
    · isplitl [Hs0]; · iexact Hs0
      isplitl [Hs1]; · iexact Hs1
      isplitl [Hs2]; · iexact Hs2
      iapply (BIBase.Entails.of_eq (Memref.IsWhole.exists_owns_eq (c := (c : Thread nD τ)) hsS fullShare))
      iexact Hscr
    · iexact Hp
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  THE RUN of @main: five segments — a host stretch (transpose, reshape), region 0 (the matrix product), a host
  stretch (reshape), region 1 (the pairwise kernel), a host stretch (concatenate). The buffer contents at every
  segment boundary as a fold from the launch memory, the two regions as segments over the thread state "every
  unscoped buffer at the boundary's contents", and the run: every final memory holds, at every unscoped buffer,
  the last boundary's contents.

  Region 1 reads ONE array through two windows. Its proof data hold the two input windows at the two halves of
  the array's full share; at entry the full share is split in two, at exit the halves — both still at the entry
  contents, an input array is never written — rejoin.
-/
import proofs.«130838_j5806795784869_2_alg».proof.Proof.Kernel.R0
import proofs.«130838_j5806795784869_2_alg».proof.Proof.Kernel.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the host stretches write -/

/-- `hostOps0` writes `main_v0` and `main_v1` only. -/
theorem hostOps0_keeps (V : Valuation τ sig (Elt F)) (r : Ref sig .tc) (h : r ∉ ([main_v0, main_v1] : List (Ref sig .tc))) :
    StableHlo.after (hostOps0 (F := F)) V (Proc.devRef .tc r) = V (Proc.devRef .tc r) :=
  StableHlo.after_of_writes_sub hostOps0 V (by
    simp only [List.Forall]
    exact ⟨by simp only [StableHlo.unary_writes, StableHlo.reshape_writes, Finset.singleton_subset_iff, List.mem_toFinset]; exact List.mem_map_of_mem (by decide),
      by simp only [StableHlo.unary_writes, StableHlo.reshape_writes, Finset.singleton_subset_iff, List.mem_toFinset]; exact List.mem_map_of_mem (by decide)⟩) h

/-- `hostOps1` writes `main_v3` only. -/
theorem hostOps1_keeps (V : Valuation τ sig (Elt F)) (r : Ref sig .tc) (h : r ∉ ([main_v3] : List (Ref sig .tc))) :
    StableHlo.after (hostOps1 (F := F)) V (Proc.devRef .tc r) = V (Proc.devRef .tc r) :=
  StableHlo.after_of_writes_sub hostOps1 V (by
    simp only [List.Forall]
    exact (by simp only [StableHlo.reshape_writes, Finset.singleton_subset_iff, List.mem_toFinset]; exact List.mem_map_of_mem (by decide))) h

/-- `hostOps2` writes `main_v5` only. -/
theorem hostOps2_keeps (V : Valuation τ sig (Elt F)) (r : Ref sig .tc) (h : r ∉ ([main_v5] : List (Ref sig .tc))) :
    StableHlo.after (hostOps2 (F := F)) V (Proc.devRef .tc r) = V (Proc.devRef .tc r) :=
  StableHlo.after_of_writes_sub hostOps2 V (by
    simp only [List.Forall]
    exact (by simp only [StableHlo.binary_writes, Finset.singleton_subset_iff, List.mem_toFinset]; exact List.mem_map_of_mem (by decide))) h

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor

/-! ## The buffer contents at each segment boundary: a fold through @main -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its output array `main_v4` at what the pipeline leaves, every other buffer — its input
    array `main_v3`, read through two windows and never written, among them — as entered. -/
def W4 (c : Dev nD) : Valuation τ sig (Elt F) :=
  Function.update (W3 m ρ c) (Proc.devRef .tc main_v4)
    ((dat1 (V3 m ρ) c).arrAt 2 cfg1.N : Buf (Elt F) ((c : Thread nD τ).loc main_v4))
theorem W4_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
/-- The same read at the TensorCore's references (region 1's exit contents). -/
abbrev V4 : (c : Dev nD) → (b : Ref sig .tc) → Buf (Elt F) ((c : Thread nD τ).loc b) := fun c b => W4 m ρ c b

/-- After `hostOps2` (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps2_keeps _ main_arg0 (by decide)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_keeps _ main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps2_keeps _ main_arg1 (by decide)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) := W2_of_ne m ρ c main_arg1 (by decide)
    _ = W0 m ρ c (Proc.devRef .tc main_arg1) := hostOps0_keeps _ main_arg1 (by decide)
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays, three
    distinct buffers, split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays: one buffer behind two windows

The two input windows of region 1 are blocks of the one array `main_v3`; the output window's array is `main_v4`.
The proof data hold window 0's array at the left half of the full share, window 1's at the right half and the
output's at the full share: `Dat.arrays` is three points-tos, two of them of `main_v3`. -/

variable (V : (c : Dev nD) → (b : Ref sig .tc) → Buf (Elt F) ((c : Thread nD τ).loc b)) in
theorem share1_0 (c : Dev nD) : (dat1 V c).share 0 = fullShare.left := by
  unfold Dat.share; rw [if_neg (by rw [show (cfg1.win 0).isOut = false from rfl]; exact Bool.false_ne_true)]; dsimp only [dat1]
variable (V : (c : Dev nD) → (b : Ref sig .tc) → Buf (Elt F) ((c : Thread nD τ).loc b)) in
theorem share1_1 (c : Dev nD) : (dat1 V c).share 1 = fullShare.right := by
  unfold Dat.share; rw [if_neg (by rw [show (cfg1.win 1).isOut = false from rfl]; exact Bool.false_ne_true)]; dsimp only [dat1]
variable (V : (c : Dev nD) → (b : Ref sig .tc) → Buf (Elt F) ((c : Thread nD τ).loc b)) in
theorem share1_2 (c : Dev nD) : (dat1 V c).share 2 = fullShare := by
  unfold Dat.share; rw [if_pos (show (cfg1.win 2).isOut = true from rfl)]

/-- The distinct buffers behind region 1's windows are `main_v3` and `main_v4`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_v4) ↦{fullShare} V main_v4)) := by
  unfold Pipeline.arrBufs
  exact bigSep_eq_bigSepL_of_eq [main_v3, main_v4] (by decide) (by decide) _

variable (V : (c : Dev nD) → (b : Ref sig .tc) → Buf (Elt F) ((c : Thread nD τ).loc b)) in
/-- Region 1's arrays at contents `G`, window by window: the two halves of `main_v3` and the whole of `main_v4`. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2)) := by
  unfold Dat.arrays
  rw [bigSep_W1, share1_0, share1_1, share1_2, (arr_whole1 0).set_eq_univ, (arr_whole1 2).set_eq_univ]

/-- ENTRY, the arrays' part: the unscoped buffers at `W3` are region 1's arrays at the proof data's entry contents —
    `main_v3`'s full share dealt in two halves, one per input window — and the unscoped rest. -/
theorem entry_arrays1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V3 m ρ c)) := by
  have h₁ : (StableHlo.held (c : Thread nD τ) (Pipeline.ucRefs τ sig) (W3 m ρ c) : sProp 𝕄)
      = iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) :=
    (Pipeline.unscopedBufs_held c (W3 m ρ c)).symm.trans (Pipeline.unscopedBufs_split₀ cfgs 1 winFacts₀1.arr_unscoped c (V3 m ρ c))
  rw [h₁, arrBufs1_eq]
  refine sep_mono ?_ .rfl
  refine BIBase.Entails.trans ?_ (Entails.of_eq (arrays1_eq (V3 m ρ) c _).symm)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- The unscoped buffers that are no array of region 1 hold at its exit what they held at its entry. -/
theorem unscopedRest1_exit (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact bigSep_congr fun b hb => by
    rw [show V4 m ρ c b = V3 m ρ c b from W4_of_ne m ρ c b fun e =>
      (Finset.mem_sdiff.mp hb).2 (Finset.mem_image.mpr ⟨2, Finset.mem_univ _, e.symm⟩)]

/-- EXIT, the arrays' part: region 1's arrays at their final contents — the two halves of `main_v3`, both still at
    the entry contents, rejoined; `main_v4` at what the write-backs leave — and the unscoped rest are the unscoped
    buffers at `W4`. -/
theorem exit_arrays1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have h₁ : (StableHlo.held (c : Thread nD τ) (Pipeline.ucRefs τ sig) (W4 m ρ c) : sProp 𝕄)
      = iprop(Pipeline.arrBufs (Ix := Unit) (Name := ℕ) (U := UR sig nD τ) (Lvl := ℕ) spec1 c (V4 m ρ c)
          ∗ Pipeline.unscopedRest (Ix := Unit) (Name := ℕ) (U := UR sig nD τ) (Lvl := ℕ) spec1 c (V4 m ρ c)) :=
    (Pipeline.unscopedBufs_held c (W4 m ρ c)).symm.trans (Pipeline.unscopedBufs_split₀ cfgs 1 winFacts₀1.arr_unscoped c (V4 m ρ c))
  rw [h₁, arrBufs1_eq, unscopedRest1_exit]
  refine sep_mono ?_ .rfl
  refine BIBase.Entails.trans (Entails.of_eq (arrays1_eq (V3 m ρ) c _)) ?_
  rw [show (pdats m ρ 1 c).arrAt 0 cfg1.N = V3 m ρ c main_v3 from ((dat1 (V3 m ρ) c).arrAt_in 0 rfl _).trans (A_eq1 (V3 m ρ) c 0),
    show (pdats m ρ 1 c).arrAt 1 cfg1.N = V3 m ρ c main_v3 from ((dat1 (V3 m ρ) c).arrAt_in 1 rfl _).trans (A_eq1 (V3 m ρ) c 1),
    show V4 m ρ c main_v3 = V3 m ρ c main_v3 from W4_of_ne m ρ c main_v3 (by decide),
    show V4 m ρ c main_v4 = (pdats m ρ 1 c).arrAt 2 cfg1.N from W4_v4 m ρ c]
  iintro ⟨Hl, Hr, H4⟩
  isplitl [Hl Hr]
  · iapply (pointsTo_share (PosShare.mem_left_op_right fullShare)).2
    isplitl [Hl]; · iexact Hl
    iexact Hr
  iexact H4

set_option backward.isDefEq.respectTransparency.types false in
/-- REGION 1 over the thread state: entered from every unscoped buffer at `W3`, left at `W4`. Its two input
    windows read the one array `main_v3`, each holding half of its share (`entry_arrays1`, `exit_arrays1`); the
    generator register into the class invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry_arrays1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN, at any `F`: at the compiled mesh, from any memory with zero counters, every weakly fair execution of
    @main on the TensorCores terminates, nothing faulting, and every final memory holds at every unscoped buffer of
    every core the last boundary's contents `W5`: the launch over the segments, the last thread state read against
    the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every final memory has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨(h c _ (mem_uc main_arg0 (by decide))).trans (W5_main_arg0 m ρ c),
      (h c _ (mem_uc main_arg1 (by decide))).trans (W5_main_arg1 m ρ c)⟩) (run m ρ)

/-- THE RESULT: every final memory holds at the result buffer `main_v5` the last boundary's contents, and the
    argument arrays as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨h c _ (mem_uc main_v5 (by decide)),
      (h c _ (mem_uc main_arg0 (by decide))).trans (W5_main_arg0 m ρ c),
      (h c _ (mem_uc main_arg1 (by decide))).trans (W5_main_arg1 m ρ c)⟩) (run m ρ)

end Cert.Kernel.Hand

end
-- ==== Proof.KernelIdeal.R0.lean ====
/-
  Region 0 (the whole-array matrix product) at the contents `V` it is entered from: each window's block,
  what the body leaves in the output window's buffer, the body's triple, the proof data and the body obligation.
-/
import proofs.«130838_j5806795784869_2_alg».proof.Proof.Gen.KernelIdeal.Launch
import proofs.«130838_j5806795784869_2_alg».proof.Proof.Gen.KernelIdeal.Skeleton
import proofs.«130838_j5806795784869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x512 := Rect.unit (s := S256x512) ![0, 0] S256x512.size inb_S256x512_S256x512_0_0
abbrev r0_t : Rect S512x2048 := Rect.unit (s := S512x2048) ![0, 0] S512x2048.size inb_S512x2048_S512x2048_0_0
abbrev r0_o : Rect S256x2048 := Rect.unit (s := S256x2048) ![0, 0] S256x2048.size inb_S256x2048_S256x2048_0_0

/-- The output window's buffer after the body: the product of the two input blocks, stored whole. -/
def out0_2 (x0 : Vec F S256x512 .f32) (x1 : Vec F S512x2048 .f32) : Vec F S256x2048 .f32 :=
  View.canon [⟨r0_o, k0_pay1 (View.ld x0 r0_x) (View.ld x1 r0_t)⟩]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole buffer, so it covers it. -/
theorem cover0_2 (p0 : Vec F S256x2048 .f32) (y : S256x2048.Idx) :
    ∃ pc ∈ ([⟨r0_o, p0⟩] : List (View.Piece (Elt F) S256x2048 .f32)), y ∈ pc.1.set :=
  View.cover_of_tiled [⟨r0_o, p0⟩] S256x2048.size (by rfl) y

set_option maxHeartbeats 1000000 in
/-- The body on whole staging memrefs, the two inputs' at read contents and the output's at anything, runs to the
    continuation holding the inputs' as they were and the output's at the product `out0_2` of the inputs'. The body
    reads the output buffer once before its store; the value read is not used. -/
theorem sound_kernel0 (c : Dev nD) (E : Set ℕ) (i : grid0.Coords)
    (arg1 : Memref sig .tc .vmem S256x512 .f32) (harg1 : arg1.IsWhole)
    (arg2 : Memref sig .tc .vmem S512x2048 .f32) (harg2 : arg2.IsWhole)
    (arg3 : Memref sig .tc .vmem S256x2048 .f32) (harg3 : arg3.IsWhole)
    (x0 : Vec F S256x512 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, %hf2, H2⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1.lean ====
/-
  Region 1 (the pairwise kernel) at the contents `V` it is entered from: each window's block; the body run once on
  symbolic whole memrefs, the pieces its stores leave in the output buffer being what the run finds; the proof data
  (the two input windows read one array, each at half the share; the accumulator lives in a scratch buffer that the
  body zeroes before it reads it, so nothing is carried between grid points); the body obligation.
-/
import proofs.«130838_j5806795784869_2_alg».proof.Proof.Gen.KernelIdeal.Launch
import proofs.«130838_j5806795784869_2_alg».proof.Proof.Gen.KernelIdeal.Skeleton
import proofs.«130838_j5806795784869_2_alg».proof.Proof.Gen.KernelIdeal.Loops
import proofs.«130838_j5806795784869_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (window 0 is
    fetched at the first point only and its block index never moves; window 1 is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of the output window, through which its contents are stated (the choice does not matter). -/
abbrev VO1_2 : View sig .tc .vmem S128x128 .f32 := (Memref.whole cc1_stg2_0 : Memref sig .tc .vmem S128x128 .f32).view
/-- Each window's current staging memref at point `t`, and its wholeness. -/
abbrev ms1_0 (t : Fin cfg1.N) : Memref sig .tc .vmem S256x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
/-- The accumulator's scratch buffer. -/
abbrev msS : Memref sig .tc .vmem S128x128 .f32 := Memref.whole cc1_scratch0
abbrev hsS : (msS).IsWhole := Memref.isWhole_whole _

set_option maxHeartbeats 4000000 in
/-- What the body's stores leave in the output window's staging memref, as pieces (last first), WITH the proof that on
    whole memrefs — the two inputs' at their contents, the output's and the scratch's at anything — the body runs to the
    continuation holding the inputs' as they were, the output's buffer with its pieces written and the scratch at
    something: the counted loop is gone through by its invariant, once, over a symbolic trip. -/
noncomputable def kernelRun1 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) :
    { L3 : List (View.Piece (Elt F) S128x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc1__pairwise_kernel i arg1 harg1 arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _; iexists _; isplitr
    swap; · iexact H4
    ipureintro; rfl

/-- The pieces tile the output block, so they cover it. -/
theorem cover1_2 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) (y : S128x128.Idx) :
    ∃ pc ∈ (kernelRun1 c i arg1 harg1 arg2 harg2 arg3 harg3 arg4 harg4 x0 x1).1, y ∈ pc.1.set :=
  View.cover_of_tiledL (kernelRun1 c i arg1 harg1 arg2 harg2 arg3 harg3 arg4 harg4 x0 x1).1 S128x128.size (by sl_kernel_rfl) y

/-- What the body leaves in the output window's staging buffer: its pieces read back over junk. -/
def outOf1 (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) : Vec F S128x128 .f32 :=
  VO1_2.read (Elt F) (VO1_2.writes (Elt F) VO1_2.junk (kernelRun1 c i arg1 harg1 arg2 harg2 arg3 harg3 arg4 harg4 x0 x1).1)

/-- The output window's buffer after the body at point `t`: the run at the point's memrefs and input blocks. -/
def out1_2 (c : Dev nD) (t : Fin cfg1.N) : Vec F S128x128 .f32 :=
  outOf1 c (grid1.coords t) (ms1_0 t) (hs1_0 t) (ms1_1 t) (hs1_1 t) (ms1_2 t) (hs1_2 t) msS hsS (iblk1 V c 0 t) (iblk1 V c 1 t)

/-! ## The pipeline's proof data -/

/-- The proof data of region 1 on core `c`: the two input windows read one array, each at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1000000 in
/-- The body at any point: the inputs' memrefs hold their blocks, the output's anything; the scratch buffer comes out
    of the invariant's scoped rest at some contents and goes back at some contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl]
  unfold Pipeline.ΦA
  rw [scopedRest1_eq]
  unfold out1_2 outOf1
  iintro ⟨⟨⟨Hs0, Hs1, Hs2, Hscr⟩, Hp⟩, Ho, ⟨%d0, H0⟩, ⟨%d1, H1⟩, ⟨%d2, H2⟩⟩
  iapply ((kernelRun1 c (grid1.coords t) (ms1_0 t) (hs1_0 t) (ms1_1 t) (hs1_1 t) (ms1_2 t) (hs1_2 t) msS hsS (iblk1 V c 0 t) (iblk1 V c 1 t)).2 Set.univ _)
  isplitl [H0]; · iexact H0
  isplitl [H1]; · iexact H1
  isplitl [H2]; · iexists _; iexact H2
  isplitl [Hscr]
  · iapply (BIBase.Entails.of_eq (Memref.IsWhole.exists_owns_eq (c := (c : Thread nD τ)) hsS fullShare).symm)
    iexact Hscr
  iintro ⟨H0, H1, ⟨%e2, H2⟩, Hscr⟩
  isplitl [Hs0 Hs1 Hs2 Hscr Hp]
  · isplitr [Hp]
    · isplitl [Hs0]; · iexact Hs0
      isplitl [Hs1]; · iexact Hs1
      isplitl [Hs2]; · iexact Hs2
      iapply (BIBase.Entails.of_eq (Memref.IsWhole.exists_owns_eq (c := (c : Thread nD τ)) hsS fullShare))
      iexact Hscr
    · iexact Hp
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  THE RUN of @main: five segments — a host stretch (transpose, reshape), region 0 (the matrix product), a host
  stretch (reshape), region 1 (the pairwise kernel), a host stretch (concatenate). The buffer contents at every
  segment boundary as a fold from the launch memory, the two regions as segments over the thread state "every
  unscoped buffer at the boundary's contents", and the run: every final memory holds, at every unscoped buffer,
  the last boundary's contents.

  Region 1 reads ONE array through two windows. Its proof data hold the two input windows at the two halves of
  the array's full share; at entry the full share is split in two, at exit the halves — both still at the entry
  contents, an input array is never written — rejoin.
-/
import proofs.«130838_j5806795784869_2_alg».proof.Proof.KernelIdeal.R0
import proofs.«130838_j5806795784869_2_alg».proof.Proof.KernelIdeal.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the host stretches write -/

/-- `hostOps0` writes `main_v0` and `main_v1` only. -/
theorem hostOps0_keeps (V : Valuation τ sig (Elt F)) (r : Ref sig .tc) (h : r ∉ ([main_v0, main_v1] : List (Ref sig .tc))) :
    StableHlo.after (hostOps0 (F := F)) V (Proc.devRef .tc r) = V (Proc.devRef .tc r) :=
  StableHlo.after_of_writes_sub hostOps0 V (by
    simp only [List.Forall]
    exact ⟨by simp only [StableHlo.unary_writes, StableHlo.reshape_writes, Finset.singleton_subset_iff, List.mem_toFinset]; exact List.mem_map_of_mem (by decide),
      by simp only [StableHlo.unary_writes, StableHlo.reshape_writes, Finset.singleton_subset_iff, List.mem_toFinset]; exact List.mem_map_of_mem (by decide)⟩) h

/-- `hostOps1` writes `main_v3` only. -/
theorem hostOps1_keeps (V : Valuation τ sig (Elt F)) (r : Ref sig .tc) (h : r ∉ ([main_v3] : List (Ref sig .tc))) :
    StableHlo.after (hostOps1 (F := F)) V (Proc.devRef .tc r) = V (Proc.devRef .tc r) :=
  StableHlo.after_of_writes_sub hostOps1 V (by
    simp only [List.Forall]
    exact (by simp only [StableHlo.reshape_writes, Finset.singleton_subset_iff, List.mem_toFinset]; exact List.mem_map_of_mem (by decide))) h

/-- `hostOps2` writes `main_v5` only. -/
theorem hostOps2_keeps (V : Valuation τ sig (Elt F)) (r : Ref sig .tc) (h : r ∉ ([main_v5] : List (Ref sig .tc))) :
    StableHlo.after (hostOps2 (F := F)) V (Proc.devRef .tc r) = V (Proc.devRef .tc r) :=
  StableHlo.after_of_writes_sub hostOps2 V (by
    simp only [List.Forall]
    exact (by simp only [StableHlo.binary_writes, Finset.singleton_subset_iff, List.mem_toFinset]; exact List.mem_map_of_mem (by decide))) h

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor

/-! ## The buffer contents at each segment boundary: a fold through @main -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its output array `main_v4` at what the pipeline leaves, every other buffer — its input
    array `main_v3`, read through two windows and never written, among them — as entered. -/
def W4 (c : Dev nD) : Valuation τ sig (Elt F) :=
  Function.update (W3 m ρ c) (Proc.devRef .tc main_v4)
    ((dat1 (V3 m ρ) c).arrAt 2 cfg1.N : Buf (Elt F) ((c : Thread nD τ).loc main_v4))
theorem W4_v4 (c : Dev nD) : W4 m ρ c (Proc.devRef .tc main_v4) = (dat1 (V3 m ρ) c).arrAt 2 cfg1.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..
/-- The same read at the TensorCore's references (region 1's exit contents). -/
abbrev V4 : (c : Dev nD) → (b : Ref sig .tc) → Buf (Elt F) ((c : Thread nD τ).loc b) := fun c b => W4 m ρ c b

/-- After `hostOps2` (the return). -/
abbrev W5 : Dev nD → Valuation τ sig (Elt F) := fun c => StableHlo.after hostOps2 (W4 m ρ c)

/-! ### The arguments end as launched: no host operation and no region writes one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps2_keeps _ main_arg0 (by decide)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_keeps _ main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps2_keeps _ main_arg1 (by decide)
    _ = W3 m ρ c (Proc.devRef .tc main_arg1) := W4_of_ne m ρ c main_arg1 (by decide)
    _ = W2 m ρ c (Proc.devRef .tc main_arg1) := hostOps1_keeps _ main_arg1 (by decide)
    _ = W1 m ρ c (Proc.devRef .tc main_arg1) := W2_of_ne m ρ c main_arg1 (by decide)
    _ = W0 m ρ c (Proc.devRef .tc main_arg1) := hostOps0_keeps _ main_arg1 (by decide)
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 over the thread state: entered from every unscoped buffer at `W1`, left at `W2`. Its arrays, three
    distinct buffers, split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays: one buffer behind two windows

The two input windows of region 1 are blocks of the one array `main_v3`; the output window's array is `main_v4`.
The proof data hold window 0's array at the left half of the full share, window 1's at the right half and the
output's at the full share: `Dat.arrays` is three points-tos, two of them of `main_v3`. -/

variable (V : (c : Dev nD) → (b : Ref sig .tc) → Buf (Elt F) ((c : Thread nD τ).loc b)) in
theorem share1_0 (c : Dev nD) : (dat1 V c).share 0 = fullShare.left := by
  unfold Dat.share; rw [if_neg (by rw [show (cfg1.win 0).isOut = false from rfl]; exact Bool.false_ne_true)]; dsimp only [dat1]
variable (V : (c : Dev nD) → (b : Ref sig .tc) → Buf (Elt F) ((c : Thread nD τ).loc b)) in
theorem share1_1 (c : Dev nD) : (dat1 V c).share 1 = fullShare.right := by
  unfold Dat.share; rw [if_neg (by rw [show (cfg1.win 1).isOut = false from rfl]; exact Bool.false_ne_true)]; dsimp only [dat1]
variable (V : (c : Dev nD) → (b : Ref sig .tc) → Buf (Elt F) ((c : Thread nD τ).loc b)) in
theorem share1_2 (c : Dev nD) : (dat1 V c).share 2 = fullShare := by
  unfold Dat.share; rw [if_pos (show (cfg1.win 2).isOut = true from rfl)]

/-- The distinct buffers behind region 1's windows are `main_v3` and `main_v4`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v3) ↦{fullShare} V main_v3) ∗ (((c : Thread nD τ).loc main_v4) ↦{fullShare} V main_v4)) := by
  unfold Pipeline.arrBufs
  exact bigSep_eq_bigSepL_of_eq [main_v3, main_v4] (by decide) (by decide) _

variable (V : (c : Dev nD) → (b : Ref sig .tc) → Buf (Elt F) ((c : Thread nD τ).loc b)) in
/-- Region 1's arrays at contents `G`, window by window: the two halves of `main_v3` and the whole of `main_v4`. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2)) := by
  unfold Dat.arrays
  rw [bigSep_W1, share1_0, share1_1, share1_2, (arr_whole1 0).set_eq_univ, (arr_whole1 2).set_eq_univ]

/-- ENTRY, the arrays' part: the unscoped buffers at `W3` are region 1's arrays at the proof data's entry contents —
    `main_v3`'s full share dealt in two halves, one per input window — and the unscoped rest. -/
theorem entry_arrays1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V3 m ρ c)) := by
  have h₁ : (StableHlo.held (c : Thread nD τ) (Pipeline.ucRefs τ sig) (W3 m ρ c) : sProp 𝕄)
      = iprop(Pipeline.arrBufs (Ix := Unit) (Name := ℕ) (U := UR sig nD τ) (Lvl := ℕ) spec1 c (V3 m ρ c)
          ∗ Pipeline.unscopedRest (Ix := Unit) (Name := ℕ) (U := UR sig nD τ) (Lvl := ℕ) spec1 c (V3 m ρ c)) :=
    (Pipeline.unscopedBufs_held c (W3 m ρ c)).symm.trans (Pipeline.unscopedBufs_split₀ cfgs 1 winFacts₀1.arr_unscoped c (V3 m ρ c))
  rw [h₁, arrBufs1_eq]
  refine sep_mono ?_ .rfl
  refine BIBase.Entails.trans ?_ (Entails.of_eq (arrays1_eq (V3 m ρ) c _).symm)
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- The unscoped buffers that are no array of region 1 hold at its exit what they held at its entry. -/
theorem unscopedRest1_exit (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact bigSep_congr fun b hb => by
    rw [show V4 m ρ c b = V3 m ρ c b from W4_of_ne m ρ c b fun e =>
      (Finset.mem_sdiff.mp hb).2 (Finset.mem_image.mpr ⟨2, Finset.mem_univ _, e.symm⟩)]

/-- EXIT, the arrays' part: region 1's arrays at their final contents — the two halves of `main_v3`, both still at
    the entry contents, rejoined; `main_v4` at what the write-backs leave — and the unscoped rest are the unscoped
    buffers at `W4`. -/
theorem exit_arrays1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have h₁ : (StableHlo.held (c : Thread nD τ) (Pipeline.ucRefs τ sig) (W4 m ρ c) : sProp 𝕄)
      = iprop(Pipeline.arrBufs (Ix := Unit) (Name := ℕ) (U := UR sig nD τ) (Lvl := ℕ) spec1 c (V4 m ρ c)
          ∗ Pipeline.unscopedRest (Ix := Unit) (Name := ℕ) (U := UR sig nD τ) (Lvl := ℕ) spec1 c (V4 m ρ c)) :=
    (Pipeline.unscopedBufs_held c (W4 m ρ c)).symm.trans (Pipeline.unscopedBufs_split₀ cfgs 1 winFacts₀1.arr_unscoped c (V4 m ρ c))
  rw [h₁, arrBufs1_eq, unscopedRest1_exit]
  refine sep_mono ?_ .rfl
  refine BIBase.Entails.trans (Entails.of_eq (arrays1_eq (V3 m ρ) c _)) ?_
  rw [show (pdats m ρ 1 c).arrAt 0 cfg1.N = V3 m ρ c main_v3 from ((dat1 (V3 m ρ) c).arrAt_in 0 rfl _).trans (A_eq1 (V3 m ρ) c 0),
    show (pdats m ρ 1 c).arrAt 1 cfg1.N = V3 m ρ c main_v3 from ((dat1 (V3 m ρ) c).arrAt_in 1 rfl _).trans (A_eq1 (V3 m ρ) c 1),
    show V4 m ρ c main_v3 = V3 m ρ c main_v3 from W4_of_ne m ρ c main_v3 (by decide),
    show V4 m ρ c main_v4 = (pdats m ρ 1 c).arrAt 2 cfg1.N from W4_v4 m ρ c]
  iintro ⟨Hl, Hr, H4⟩
  isplitl [Hl Hr]
  · iapply (pointsTo_share (PosShare.mem_left_op_right fullShare)).2
    isplitl [Hl]; · iexact Hl
    iexact Hr
  iexact H4

set_option backward.isDefEq.respectTransparency.types false in
/-- REGION 1 over the thread state: entered from every unscoped buffer at `W3`, left at `W4`. Its two input
    windows read the one array `main_v3`, each holding half of its share (`entry_arrays1`, `exit_arrays1`); the
    generator register into the class invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry_arrays1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit_arrays1 m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN, at any `F`: at the compiled mesh, from any memory with zero counters, every weakly fair execution of
    @main on the TensorCores terminates, nothing faulting, and every final memory holds at every unscoped buffer of
    every core the last boundary's contents `W5`: the launch over the segments, the last thread state read against
    the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every final memory has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨(h c _ (mem_uc main_arg0 (by decide))).trans (W5_main_arg0 m ρ c),
      (h c _ (mem_uc main_arg1 (by decide))).trans (W5_main_arg1 m ρ c)⟩) (run m ρ)

/-- THE RESULT: every final memory holds at the result buffer `main_v5` the last boundary's contents, and the
    argument arrays as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs (onTc (τ := τ) (main (F := F))) ⟨m, fun _ => 0, ρ⟩).mono (fun r h c =>
    ⟨h c _ (mem_uc main_v5 (by decide)),
      (h c _ (mem_uc main_arg0 (by decide))).trans (W5_main_arg0 m ρ c),
      (h c _ (mem_uc main_arg1 (by decide))).trans (W5_main_arg1 m ρ c)⟩) (run m ρ)

end Cert.KernelIdeal.Hand

end
-- ==== Proof.RefFrame.lean ====
/-
  The reference's frame: its run, with the result's value dropped — every weakly fair execution terminates and the two
  argument arrays end as they began.
-/
import proofs.«130838_j5806795784869_2_alg».proof.Defs
import proofs.«130838_j5806795784869_2_alg».proof.Proof.Gen.ReferenceIdeal.Run
import proofs.«130838_j5806795784869_2_alg».proof.Proof.Gen.Pre_finite_inputs

noncomputable section

namespace Cert.Proof.Ref

open Idealize.ShloMosaic Idealize.SL.Sem

/-- The reference terminates without a fault and leaves its arguments unchanged. -/
theorem frame_ri : Cert.frame_ReferenceIdeal :=
  fun m ρ _ => (θ_run Cert.ReferenceIdeal.defs _ _).mono (fun _ h c => (h c).2)
    (Cert.ReferenceIdeal.Value.run (F := Ideal) m ρ)

end Cert.Proof.Ref

end
-- ==== Proof.Frames.lean ====
/-
  The frames of the two kernel programs: each one's run, with the buffers' final contents dropped but for the two
  argument arrays — every weakly fair execution terminates, nothing faulting, and the arguments end as they began.
  The kernel as printed is read at the bit-exact instance, its idealization at the ideal one; the run is the same
  text at either.
-/
import proofs.«130838_j5806795784869_2_alg».proof.Defs
import proofs.«130838_j5806795784869_2_alg».proof.Proof.Kernel.Run
import proofs.«130838_j5806795784869_2_alg».proof.Proof.KernelIdeal.Run
import proofs.«130838_j5806795784869_2_alg».proof.Proof.RefFrame
import proofs.«130838_j5806795784869_2_alg».proof.Proof.Gen.Pre_finite_inputs

noncomputable section

namespace Cert.Proof.Frames

open Idealize.ShloMosaic Idealize.SL.Sem

/-- The kernel as printed terminates without a fault and leaves its arguments unchanged. -/
theorem frame_k : Cert.frame_Kernel :=
  fun m ρ _ => Cert.Kernel.Hand.frame (F := Bits) m ρ

/-- The idealized kernel terminates without a fault and leaves its arguments unchanged. -/
theorem frame_ki : Cert.frame_KernelIdeal :=
  fun m ρ _ => Cert.KernelIdeal.Hand.frame (F := Ideal) m ρ

end Cert.Proof.Frames

end
-- ==== Proof.KernelIdeal.R0Value.lean ====
/-
  Region 0's matrix product read at an index, at the ideal values: entry (n, j) of what the body leaves in the
  output window's buffer is the sum, over the contracted coordinate f, of x0[n, f] * x1[f, j].
-/
import proofs.«130838_j5806795784869_2_alg».proof.Proof.KernelIdeal.R0
import Idealize.ShloMosaic.Lib.ValueIdx
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.SL.Sem
open Cert.KernelIdeal Cert.KernelIdeal.Gen
open scoped BigOperators

/-- The whole-buffer rectangles start at the origin. -/
theorem off_zero : (![0, 0] : Fin 2 → Nat) = fun _ => 0 := funext fun a => by fin_cases a <;> rfl

/-! ## The product's operand indices: left (row of the output, contracted), right (contracted, column of the output) -/

theorem lhs_row (i : S256x2048.Idx) (q : dot_S256x512_S512x2048_S256x2048_1_0_0_1_n_n.contr.Idx) : (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl

theorem lhs_contr (i : S256x2048.Idx) (q : dot_S256x512_S512x2048_S256x2048_1_0_0_1_n_n.contr.Idx) : (dot_S256x512_S512x2048_S256x2048_1_0_0_1_n_n.lhsIdx i q 1).val = (q ⟨0, by decide⟩).val :=
  dot_S256x512_S512x2048_S256x2048_1_0_0_1_n_n.lhsIdx_val_of_single rfl i q

theorem rhs_contr (i : S256x2048.Idx) (q : dot_S256x512_S512x2048_S256x2048_1_0_0_1_n_n.contr.Idx) : (dot_S256x512_S512x2048_S256x2048_1_0_0_1_n_n.rhsIdx i q 0).val = (q ⟨0, by decide⟩).val :=
  dot_S256x512_S512x2048_S256x2048_1_0_0_1_n_n.rhsIdx_val_of_single rfl i q

theorem rhs_col (i : S256x2048.Idx) (q : dot_S256x512_S512x2048_S256x2048_1_0_0_1_n_n.contr.Idx) : (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The product stored by region 0, at row `n` and column `j`: the sum over the 512 contracted coordinates of the
    products of the left operand's row entries and the right operand's column entries. -/
theorem out0_2_apply (x0 : Vec Ideal S256x512 .f32) (x1 : Vec Ideal S512x2048 .f32) (n : Fin 256) (j : Fin 2048) :
    Hand.out0_2 x0 x1 (ValueIdx.ix2 n j) = ∑ f : Fin 512, x0 (ValueIdx.ix2 n f) * x1 (ValueIdx.ix2 f j) := by
  unfold Hand.out0_2
  rw [View.canon_unit_zero off_zero]
  simp only [View.ld_unit_zero (S := S256x512) off_zero, View.ld_unit_zero (S := S512x2048) off_zero]
  unfold k0_pay1
  simp only [matmul, shapeCast_self]
  rw [Ideal.matmul_constant_zero_apply, ← Equiv.sum_comp (ValueIdx.contrEquiv1 dot_S256x512_S512x2048_S256x2048_1_0_0_1_n_n 512 rfl rfl).symm]
  refine Finset.sum_congr rfl fun k _ => ?_
  have hk := ValueIdx.contrEquiv1_symm_val dot_S256x512_S512x2048_S256x2048_1_0_0_1_n_n 512 rfl rfl k
  have el : dot_S256x512_S512x2048_S256x2048_1_0_0_1_n_n.lhsIdx (ValueIdx.ix2 n j) ((ValueIdx.contrEquiv1 dot_S256x512_S512x2048_S256x2048_1_0_0_1_n_n 512 rfl rfl).symm k) = ValueIdx.ix2 n k :=
    funext fun a => Fin.ext (by
      match a with
      | ⟨0, _⟩ => exact lhs_row _ _
      | ⟨1, _⟩ => exact (lhs_contr _ _).trans hk)
  have er : dot_S256x512_S512x2048_S256x2048_1_0_0_1_n_n.rhsIdx (ValueIdx.ix2 n j) ((ValueIdx.contrEquiv1 dot_S256x512_S512x2048_S256x2048_1_0_0_1_n_n 512 rfl rfl).symm k) = ValueIdx.ix2 k j :=
    funext fun a => Fin.ext (by
      match a with
      | ⟨0, _⟩ => exact (rhs_contr _ _).trans hk
      | ⟨1, _⟩ => exact rhs_col _ _)
  rw [el, er]

end Cert.KernelIdeal.HandValue

end
-- ==== Proof.Spec.lean ====
/-
  The specification: the minibatch-discrimination features as one function of the two argument arrays, over the
  extended reals. For x : [256, 512] and T : [512, 128, 16],
    M[n, o, k]   = ∑ f, x[n, f] · T[f, o, k]
    d[q, p, o]   = ∑ k, |M[q, o, k] − M[p, o, k]|          (|z| = max z (−z))
    ob[q, o]     = (∑ p, exp (−d[q, p, o])) − 1
  and the result is x and ob side by side along axis 1.
-/
import Idealize.ShloMosaic.PureOps.Ideal
import Idealize.ShloMosaic.Lib.ValueIdx

noncomputable section

open scoped BigOperators

namespace Cert.Spec

open Idealize.ShloMosaic Idealize.ShloMosaic.ValueIdx

/-- The projected matrices M[n, o, k] = ∑ f, x[n, f] · T[f, o, k]. -/
def Mat (x : (⟨2, ![256, 512]⟩ : Shape).Idx → EReal) (T : (⟨3, ![512, 128, 16]⟩ : Shape).Idx → EReal)
    (n : Fin 256) (o : Fin 128) (k : Fin 16) : EReal :=
  ∑ f : Fin 512, x (ix2 n f) * T (ix3 f o k)

/-- The L1 distance over the kernel dimension between rows q and p at feature o. -/
def dist (x : (⟨2, ![256, 512]⟩ : Shape).Idx → EReal) (T : (⟨3, ![512, 128, 16]⟩ : Shape).Idx → EReal)
    (q p : Fin 256) (o : Fin 128) : EReal :=
  ∑ k : Fin 16, max (Mat x T q o k - Mat x T p o k) (-(Mat x T q o k - Mat x T p o k))

/-- ob[q, o] = (∑ p, exp (−d[q, p, o])) − 1, the literal one kept as its f32 pattern. -/
def ob (x : (⟨2, ![256, 512]⟩ : Shape).Idx → EReal) (T : (⟨3, ![512, 128, 16]⟩ : Shape).Idx → EReal)
    (q : Fin 256) (o : Fin 128) : EReal :=
  (∑ p : Fin 256, Ideal.exp (-(dist x T q p o))) - Ideal.ofBits .f32 0x3F800000#32

/-- The feature array [256, 128]. -/
def OB (x : (⟨2, ![256, 512]⟩ : Shape).Idx → EReal) (T : (⟨3, ![512, 128, 16]⟩ : Shape).Idx → EReal) :
    (⟨2, ![256, 128]⟩ : Shape).Idx → EReal :=
  fun j => ob x T (j 0) (j 1)

theorem OB_apply (x : (⟨2, ![256, 512]⟩ : Shape).Idx → EReal) (T : (⟨3, ![512, 128, 16]⟩ : Shape).Idx → EReal)
    (q : Fin 256) (o : Fin 128) : OB x T (ix2 q o) = ob x T q o := rfl

end Cert.Spec

end
-- ==== Proof.KernelIdeal.MatValue.lean ====
/-
  The value that reaches region 1, at the ideal values. Region 0 has one grid point whose blocks are the whole
  arrays, so its output array ends holding the product of its two input arrays; the host stretch before it
  transposes and flattens the second argument, the one after it unflattens the product. Together: the array region 1
  reads holds, at (n, k, o), the projected matrix entry M[n, o, k] = ∑ f, x[n, f] · T[f, o, k].
-/
import proofs.«130838_j5806795784869_2_alg».proof.Proof.KernelIdeal.R0Value
import proofs.«130838_j5806795784869_2_alg».proof.Proof.KernelIdeal.Run
import proofs.«130838_j5806795784869_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen
open scoped BigOperators

/-! ## Region 0 writes the whole product -/

section Region0
variable {F : FTy → Type} [FloatOps F]
variable (V : (c : Dev nD) → (b : Ref sig .tc) → Buf (Elt F) ((c : Thread nD τ).loc b))

/-- Input window 0's block at the one grid point is the whole left array. -/
theorem iblk0_0_eq (c : Dev nD) (t : Fin cfg0.N) :
    Hand.iblk0 V c 0 t = (V c main_arg0 : S256x512.Idx → Elt F .f32) := by
  obtain rfl := fin_N0 t
  have hz' : (fun a => win0_0.index t0_0 a * main_arg0.ty.shape.size a) = fun _ => 0 :=
    funext fun a => by fin_cases a <;> decide
  exact Memref.read_access_unit_zero (Elt F) main_arg0 hz' (fun a => by rw [congrFun hz' a]; simp) _

/-- Input window 1's block at the one grid point is the whole right array. -/
theorem iblk0_1_eq (c : Dev nD) (t : Fin cfg0.N) :
    Hand.iblk0 V c 1 t = (V c main_v1 : S512x2048.Idx → Elt F .f32) := by
  obtain rfl := fin_N0 t
  have hz' : (fun a => win0_1.index t0_0 a * main_v1.ty.shape.size a) = fun _ => 0 :=
    funext fun a => by fin_cases a <;> decide
  exact Memref.read_access_unit_zero (Elt F) main_v1 hz' (fun a => by rw [congrFun hz' a]; simp) _

/-- What the one grid point writes back is the whole product, read through the output window's block (the whole
    array at zero offsets). -/
theorem flushed0_2_eq (c : Dev nD) (t : Fin cfg0.N) :
    (Hand.dat0 V c).flushed 2 t
      = ((cfg0.win 2).blk t).view.read (Elt F) (Hand.out0_2 (V c main_arg0) (V c main_v1)) := by
  obtain rfl := fin_N0 t
  show (cfg0.win 2).cut (grid0.coords t0_0) ((Hand.dat0 V c).after 2 t0_0) = _
  rw [Hand.after0_2, iblk0_0_eq, iblk0_1_eq]
  have hz' : (fun a => win0_2.index t0_0 a * main_v2.ty.shape.size a) = fun _ => 0 :=
    funext fun a => by fin_cases a <;> decide
  exact (Memref.read_access_unit_zero (Elt F) main_v2 hz' (fun a => by rw [congrFun hz' a]; simp) _).symm

/-- So region 0's output array ends holding the product of its two input arrays as the region finds them. -/
theorem arrAt0_2 (c : Dev nD) :
    (Hand.dat0 V c).arrAt 2 cfg0.N = Hand.out0_2 (V c main_arg0) (V c main_v1) :=
  (Hand.dat0 V c).arrAt_eq_of_cover 2 (Hand.out0_2 (V c main_arg0) (V c main_v1)) (fun t _ => flushed0_2_eq V c t) fun i =>
    ⟨t0_0, flush0_2 t0_0, by
      show i ∈ ((View.whole main_v2).slice (win0_2.rect t0_0)).set
      rw [View.set_slice_whole, Rect.mem_set_unit]
      intro a
      have h0 : (i 0 : Nat) < 256 := (i 0).isLt
      have h1 : (i 1 : Nat) < 2048 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 256 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 2048 from by decide +kernel]; omega⟩

end Region0

/-! ## The host stretches, read at an index -/

section Host

/-- The first stretch leaves the right operand array holding the second argument with its two minor axes swapped,
    then flattened. -/
theorem v1_eq (W : Valuation τ sig (Elt Ideal)) :
    (StableHlo.after (hostOps0 (F := Ideal)) W (Proc.devRef .tc main_v1) : S512x2048.Idx → EReal)
      = shapeCast S512x2048 (transpose S512x16x128 [0, 2, 1] (W (Proc.devRef .tc main_arg1) : S512x128x16.Idx → EReal)
          transposes_S512x128x16_S512x16x128_0_2_1) shapeCasts_S512x16x128_S512x2048 := by
  dsimp only [hostOps0]; after_results; rfl

/-- Column `k * 128 + o` of the right operand array is the second argument at `(·, o, k)`. -/
theorem v1_apply (W : Valuation τ sig (Elt Ideal)) (f : Fin 512) (k : Fin 16) (o : Fin 128) :
    (StableHlo.after (hostOps0 (F := Ideal)) W (Proc.devRef .tc main_v1) : S512x2048.Idx → EReal)
        (ix2 f ⟨k.val * 128 + o.val, by have := k.isLt; have := o.isLt; omega⟩)
      = (W (Proc.devRef .tc main_arg1) : S512x128x16.Idx → EReal) (ix3 f o k) := by
  rw [v1_eq]
  refine (shapeCast_apply _ shapeCasts_S512x16x128_S512x2048 _ (ix3 f k o) ?_).trans ?_
  · rw [Shape.rowMajor_val_three, Shape.rowMajor_val_two]
    show (f.val * 16 + k.val) * 128 + o.val = f.val * 2048 + (k.val * 128 + o.val)
    omega
  · exact transpose_ix3_021_apply _ _ f k o

/-- The first stretch does not write the first argument. -/
theorem arg0_kept (W : Valuation τ sig (Elt Ideal)) :
    (StableHlo.after (hostOps0 (F := Ideal)) W (Proc.devRef .tc main_arg0) : S256x512.Idx → EReal)
      = (W (Proc.devRef .tc main_arg0) : S256x512.Idx → EReal) := by
  dsimp only [hostOps0]; after_results

/-- The second stretch unflattens the product: entry `(n, k, o)` of the array region 1 reads is the product's entry
    at row `n`, column `k * 128 + o`. -/
theorem v3_apply (W : Valuation τ sig (Elt Ideal)) (n : Fin 256) (k : Fin 16) (o : Fin 128) :
    (StableHlo.after (hostOps1 (F := Ideal)) W (Proc.devRef .tc main_v3) : S256x16x128.Idx → EReal) (ix3 n k o)
      = (W (Proc.devRef .tc main_v2) : S256x2048.Idx → EReal)
          (ix2 n ⟨k.val * 128 + o.val, by have := k.isLt; have := o.isLt; omega⟩) := by
  have e : (StableHlo.after (hostOps1 (F := Ideal)) W (Proc.devRef .tc main_v3) : S256x16x128.Idx → EReal)
      = shapeCast S256x16x128 (W (Proc.devRef .tc main_v2) : S256x2048.Idx → EReal) shapeCasts_S256x2048_S256x16x128 := by
    dsimp only [hostOps1]; after_results; rfl
  rw [e]
  refine shapeCast_apply _ shapeCasts_S256x2048_S256x16x128 _ _ ?_
  rw [Shape.rowMajor_val_three, Shape.rowMajor_val_two]
  show n.val * 2048 + (k.val * 128 + o.val) = (n.val * 16 + k.val) * 128 + o.val
  omega

end Host

/-! ## Assembled: the product array holds the projected matrices -/

section Assembled

/-- Region 0's output array, entered after the first stretch from buffer contents `W0`, holds at row `n` and column
    `k * 128 + o` the projected matrix entry `M[n, o, k]` of the two arguments as `W0` has them. -/
theorem arrAt0_2_mat (W0 : Dev nD → Valuation τ sig (Elt Ideal)) (c : Dev nD) (n : Fin 256) (k : Fin 16) (o : Fin 128) :
    ((Hand.dat0 (F := Ideal) (fun c b => StableHlo.after hostOps0 (W0 c) (Proc.devRef .tc b)) c).arrAt 2 cfg0.N
        : S256x2048.Idx → EReal) (ix2 n ⟨k.val * 128 + o.val, by have := k.isLt; have := o.isLt; omega⟩)
      = Cert.Spec.Mat (W0 c (Proc.devRef .tc main_arg0)) (W0 c (Proc.devRef .tc main_arg1)) n o k := by
  have h : ((Hand.dat0 (F := Ideal) (fun c b => StableHlo.after hostOps0 (W0 c) (Proc.devRef .tc b)) c).arrAt 2 cfg0.N
        : S256x2048.Idx → EReal)
      = Hand.out0_2 (F := Ideal)
          (StableHlo.after (hostOps0 (F := Ideal)) (W0 c) (Proc.devRef .tc main_arg0) : S256x512.Idx → EReal)
          (StableHlo.after (hostOps0 (F := Ideal)) (W0 c) (Proc.devRef .tc main_v1) : S512x2048.Idx → EReal) :=
    arrAt0_2 _ c
  refine (congrFun h _).trans ((out0_2_apply _ _ n _).trans ?_)
  unfold Cert.Spec.Mat
  refine Finset.sum_congr rfl fun f _ => ?_
  refine congrArg₂ (· * ·) ?_ ?_
  · exact congrFun (arg0_kept (W0 c)) _
  · exact v1_apply (W0 c) f k o

end Assembled

/-! ## The array region 1 reads -/

section Run

variable (m : (ℓ : Loc nD τ sig) → Buf (Elt Ideal) ℓ) (ρ : Dev nD → PrngReg)

/-- At region 1's entry its input array holds, at `(n, k, o)`, the projected matrix entry `M[n, o, k]` of the two
    arguments as launched: the second stretch unflattens region 0's output array, which holds the product of the
    first argument with the transposed, flattened second one. -/
theorem v3_mat (c : Dev nD) (n : Fin 256) (k : Fin 16) (o : Fin 128) :
    (Hand.W3 m ρ c (Proc.devRef .tc main_v3) : S256x16x128.Idx → EReal) (ix3 n k o)
      = Cert.Spec.Mat (m ((c : Thread nD τ).loc main_arg0)) (m ((c : Thread nD τ).loc main_arg1)) n o k := by
  refine (v3_apply (Hand.W2 m ρ c) n k o).trans ?_
  have e : (Hand.W2 m ρ c (Proc.devRef .tc main_v2) : S256x2048.Idx → EReal)
      = ((Hand.dat0 (F := Ideal) (Hand.V1 m ρ) c).arrAt 2 cfg0.N : S256x2048.Idx → EReal) := Hand.W2_arr m ρ c 2
  refine (congrFun e _).trans ?_
  exact arrAt0_2_mat (Hand.W0 m ρ) c n k o

end Run

end Cert.KernelIdeal.HandValue

end
-- ==== Proof.KernelIdeal.Step.lean ====
/-
  One trip of the pairwise kernel's loop as a pure function: from the 128 output rows' matrices, the 8 summed rows of
  the trip and the accumulator, the slab of exponentials exp (−∑ₖ |a − b|) and the accumulator after the trip's eight
  add-and-store rounds; and the accumulator after the trips before `k`.
-/
import proofs.«130838_j5806795784869_2_alg».proof.Proof.Gen.KernelIdeal.Skeleton

noncomputable section

namespace Cert.KernelIdeal.Hand

open Idealize.ShloMosaic
open Cert.KernelIdeal Cert.KernelIdeal.Gen

variable {F : FTy → Type} [FloatOps F]

/-- The sum of the sixteen absolute differences, before the exponential: [ii, a, o]. -/
def distSlab (v1 : FVec F S128x16x128 .f32) (v16 : Vec F S8x16x128 .f32) : FVec F S8x128x128 .f32 :=
  k1_pay15 v1 (k1_pay9 v16) (k1_pay12 v1 (k1_pay9 v16) (k1_pay10 v1 v16) (k1_pay11 v1)) (k1_pay13 v1) (k1_pay14 (k1_pay9 v16))

/-- The slab of exponentials exp (0 − dist): [ii, a, o]. -/
def expSlab (v1 : FVec F S128x16x128 .f32) (v16 : Vec F S8x16x128 .f32) : FVec F S8x128x128 .f32 :=
  k1_pay16 v1 (k1_pay9 v16) (distSlab v1 v16)

/-- The accumulator after one trip: the eight slabs added in, one load-add-store round each. -/
def tripStep (v1 : FVec F S128x16x128 .f32) (v16 : Vec F S8x16x128 .f32) (A : Vec F S128x128 .f32) : Vec F S128x128 .f32 :=
  k1_pay7 (expSlab v1 v16) (k1_pay6 (expSlab v1 v16) (k1_pay5 (expSlab v1 v16) (k1_pay4 (expSlab v1 v16)
    (k1_pay3 (k1_pay20 v1 (k1_pay9 v16) (distSlab v1 v16)
      (k1_pay19 v1 (k1_pay9 v16) (distSlab v1 v16)
        (k1_pay18 v1 (k1_pay9 v16) (distSlab v1 v16)
          (k1_pay17 v1 (k1_pay9 v16) (distSlab v1 v16) A))))))))

end Cert.KernelIdeal.Hand

end
-- ==== Proof.KernelIdeal.R1Value.lean ====
/-
  What region 1's body leaves in its output block, as a pure function of its two input blocks: the scratch
  accumulator starts at zero, each trip of the loop replaces it by `tripStep` of itself, and the block is the
  last payload of the accumulator after the 32 trips.
-/
import proofs.«130838_j5806795784869_2_alg».proof.Proof.KernelIdeal.R1
import proofs.«130838_j5806795784869_2_alg».proof.Proof.KernelIdeal.Step
import Idealize.ShloMosaic.Lib.Pipeline.Value
import Idealize.ShloMosaic.Lib.WholeRead
import Idealize.ShloMosaic.Lib.Writes

set_option maxRecDepth 16384

noncomputable section

namespace Cert.KernelIdeal.HandValue

open Idealize.ShloMosaic Idealize.ShloMosaic.TcCoe Idealize.ShloMosaic.Tactic
open Idealize.SL Idealize.SL.Sem
open Cert.KernelIdeal Cert.KernelIdeal.Gen Cert.KernelIdeal.Hand

variable {F : FTy → Type} [FloatOps F]

theorem hz2 : (![0, 0] : Fin S128x128.rank → Nat) = fun _ => 0 := by
  funext a; match a with | ⟨0, _⟩ => rfl | ⟨1, _⟩ => rfl
theorem hz3 : (![0, 0, 0] : Fin S128x16x128.rank → Nat) = fun _ => 0 := by
  funext a; match a with | ⟨0, _⟩ => rfl | ⟨1, _⟩ => rfl | ⟨2, _⟩ => rfl

section Whole

variable {Val : EltTy → Type} [∀ e, Nonempty (Val e)] {sig' : RefSig} {κ : Kind} {sp : Space} {S : Shape} {e : EltTy}

/-- A store through the whole-shape rectangle, LAST, is what the buffer then reads, whatever it held. -/
theorem read_writes_cons_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

/-- A load through the whole-shape rectangle after such a store reads its payload. -/
theorem readCov_cons_whole (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

set_option maxHeartbeats 2000000 in
/-- One trip, read back: the accumulator after the trip's stores is `tripStep` of what it held, of the eight rows the
    trip loads, and of the output rows' matrices. -/
theorem trip_read (𝒱 : Variants) (c : Dev nD) (bd : Option 𝒱.V) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (v0 : Vec F S128x16x128 .f32) (x0 : Vec F S256x16x128 .f32) (k : Fin k1_t1_loop.trips) (f : BufTy.Contents (Elt F) arg4.view.ty) :
    arg4.view.read (Elt F) (arg4.view.writes (Elt F) f
        (tripL_k1_t1 (F := F) 𝒱 c bd i arg1 harg1 arg2 harg2 arg3 harg3 arg4 harg4 v0 (harg1.unread x0) k f))
      = tripStep (k1_pay1 v0) (View.ld x0 (Rect.unit (k1_off1 k) S8x16x128.size (k1_off1_inb k))) (arg4.view.read (Elt F) f) := by
  unfold tripL_k1_t1 trip_k1_t1
  dsimp only
  sl_unfold_run_names
  rw [read_writes_cons_whole (S := S128x128) _ _ hz2]
  simp only [View.readCov_unit_zero (S := S128x128) _ hz2, readCov_cons_whole (S := S128x128) _ hz2, View.readAt_eq_ld, harg1.read_unread, View.ld_unit_zero (S := S128x128) hz2]
  rfl

/-- The accumulator after the trips before `k`: zero, then one `tripStep` per trip over the eight rows it loads. -/
def accAt (v1 : FVec F S128x16x128 .f32) (x0 : Vec F S256x16x128 .f32) : ℕ → Vec F S128x128 .f32
  | 0 => k1_pay2
  | k + 1 =>
    if h : k < k1_t1_loop.trips then
      tripStep v1 (View.ld x0 (Rect.unit (k1_off1 ⟨k, h⟩) S8x16x128.size (k1_off1_inb ⟨k, h⟩))) (accAt v1 x0 k)
    else accAt v1 x0 k

theorem accAt_succ (v1 : FVec F S128x16x128 .f32) (x0 : Vec F S256x16x128 .f32) (k : ℕ) (h : k < k1_t1_loop.trips) :
    accAt v1 x0 (k + 1) = tripStep v1 (View.ld x0 (Rect.unit (k1_off1 ⟨k, h⟩) S8x16x128.size (k1_off1_inb ⟨k, h⟩))) (accAt v1 x0 k) := by
  rw [accAt, dif_pos h]

set_option maxHeartbeats 2000000 in
/-- The loop, read back: after the trips before `k` the scratch buffer reads `accAt k`, from contents that read zero. -/
theorem loop_read (𝒱 : Variants) (c : Dev nD) (bd : Option 𝒱.V) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (v0 : Vec F S128x16x128 .f32) (x0 : Vec F S256x16x128 .f32) (G : BufTy.Contents (Elt F) arg4.view.ty)
    (hG : arg4.view.read (Elt F) G = k1_pay2) :
    ∀ k : ℕ, k ≤ k1_t1_loop.trips →
      arg4.view.read (Elt F) (arg4.view.writes (Elt F) G
          (pb_k1_t1 (F := F) 𝒱 c bd i arg1 harg1 arg2 harg2 arg3 harg3 arg4 harg4 v0 (harg1.unread x0) G k))
        = accAt (k1_pay1 v0) x0 k := by
  intro k
  induction k with
  | zero =>
    intro _
    rw [pb_k1_t1.eq_1]
    exact hG
  | succ k ih =>
    intro hk
    have hk' : k < k1_t1_loop.trips := hk
    have e := pb_k1_t1_succ (F := F) 𝒱 c bd i arg1 harg1 arg2 harg2 arg3 harg3 arg4 harg4 v0 (harg1.unread x0) G ⟨k, hk'⟩
    rw [show (⟨k, hk'⟩ : Fin k1_t1_loop.trips).val = k from rfl] at e
    rw [e, View.writes_append, trip_read, ih (Nat.le_of_lt hk'), accAt_succ _ _ k hk']

set_option maxHeartbeats 2000000 in
/-- What the body leaves in the output block: the accumulator after all the trips, less one. -/
theorem outOf1_eq (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec F S256x16x128 .f32) (x1 : Vec F S128x16x128 .f32) :
    outOf1 c i arg1 harg1 arg2 harg2 arg3 harg3 arg4 harg4 x0 x1 = k1_pay8 (accAt (k1_pay1 x1) x0 k1_t1_loop.trips) := by
  unfold outOf1 kernelRun1
  dsimp only
  sl_unfold_run_names
  rw [read_writes_cons_whole (S := S128x128) _ _ hz2]
  refine congrArg k1_pay8 ?_
  rw [View.readAt_eq_ld, View.ld_unit_zero (S := S128x128) hz2, View.writes_append]
  have hv0 : View.readAt (Elt F) arg2.view (Rect.unit (s := S128x16x128) ![0, 0, 0] S128x16x128.size inb_S128x16x128_S128x16x128_0_0_0).toLoadRect (harg2.unread x1) = x1 := by
    rw [View.readAt_eq_ld, harg2.read_unread, View.ld_unit_zero (S := S128x16x128) hz3]
  rw [hv0]
  exact loop_read Variants.none c none i arg1 harg1 arg2 harg2 arg3 harg3 arg4 harg4 x1 x0 _
    (read_writes_cons_whole (S := S128x128) _ _ hz2 _ _ _) _ (Nat.le_refl _)

end Cert.KernelIdeal.HandValue

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.KernelSum.lean ====
/-
  Two facts about sums in a commutative additive monoid (the extended reals are one), with no program in sight: a sum
  written out term by term, nested to the left, is the finite sum; and a running total that adds eight consecutive
  terms per step, thirty-two times, is the sum of all 256 terms.
-/
import Mathlib.Algebra.BigOperators.Fin
import Mathlib.Data.Fintype.BigOperators
import Mathlib.Data.EReal.Basic
import proofs.«130838_j5806795784869_2_alg».proof.Proof.LibBlockSum

open scoped BigOperators

namespace Cert.KernelSum

/-- Sixteen terms added one after the other onto zero are their sum. -/
theorem nest16 {M : Type*} [AddCommMonoid M] (g : Fin 16 → M) :
    0 + g 0 + g 1 + g 2 + g 3 + g 4 + g 5 + g 6 + g 7 + g 8 + g 9 + g 10 + g 11 + g 12 + g 13 + g 14 + g 15
      = ∑ k : Fin 16, g k := by
  have h : ∑ k : Fin 16, g k = ∑ i ∈ Finset.range 16, (if h : i < 16 then g ⟨i, h⟩ else 0) := by
    rw [Finset.sum_range]
    exact Finset.sum_congr rfl fun k _ => by rw [dif_pos k.isLt]
  rw [h]
  simp only [Finset.sum_range_succ, Finset.sum_range_zero]
  rfl

/-- The same without the leading zero. -/
theorem nest16' {M : Type*} [AddCommMonoid M] (g : Fin 16 → M) :
    g 0 + g 1 + g 2 + g 3 + g 4 + g 5 + g 6 + g 7 + g 8 + g 9 + g 10 + g 11 + g 12 + g 13 + g 14 + g 15
      = ∑ k : Fin 16, g k := by
  rw [← nest16 g, zero_add]

/-- Eight terms added one after the other onto a start value are the start value plus their sum. -/
theorem nest8 {M : Type*} [AddCommMonoid M] (z : M) (e : Fin 8 → M) :
    z + e 0 + e 1 + e 2 + e 3 + e 4 + e 5 + e 6 + e 7 = z + ∑ i : Fin 8, e i := by
  rw [Fin.sum_univ_eight]
  simp only [add_assoc]

/-- Position `i` of the `t`-th group of eight, among thirty-two groups, is below 256. -/
theorem group_lt {t : ℕ} (ht : t < 32) (i : Fin 8) : 8 * t + i.val < 256 := by
  have := i.isLt
  omega

/-- A RUNNING TOTAL OVER THIRTY-TWO GROUPS OF EIGHT. If the total starts at zero and step `t` adds the eight terms
    `8 t, …, 8 t + 7`, then after thirty-two steps it is the sum of all 256 terms. -/
theorem run32 {M : Type*} [AddCommMonoid M] (e : Fin 256 → M) (acc : ℕ → M) (h0 : acc 0 = 0)
    (hs : ∀ (t : ℕ) (ht : t < 32), acc (t + 1) = acc t + ∑ i : Fin 8, e ⟨8 * t + i.val, group_lt ht i⟩) :
    acc 32 = ∑ p : Fin 256, e p := by
  have key : ∀ n, n ≤ 32 → acc n = ∑ t ∈ Finset.range n,
      (if ht : t < 32 then ∑ i : Fin 8, e ⟨8 * t + i.val, group_lt ht i⟩ else 0) := by
    intro n
    induction n with
    | zero => intro _; rw [Finset.sum_range_zero]; exact h0
    | succ n ih =>
      intro hn
      have hn' : n < 32 := hn
      rw [Finset.sum_range_succ, ← ih (Nat.le_of_lt hn'), hs n hn', dif_pos hn']
  rw [key 32 (Nat.le_refl 32), Cert.LibBlockSum.sum_range_eq_sum_fin]
  rw [← Cert.LibBlockSum.sum_blocks_mul 32 8 e]
  exact Finset.sum_congr rfl fun t _ => dif_pos t.isLt

end Cert.KernelSum
-- ==== Proof.KernelIdeal.PayValue.lean ====
/-
  The pairwise kernel's payloads read at an index, over the extended reals: the slab of exponentials is
  exp (−∑ₖ |v1[a, k, o] − v16[ii, k, o]|) at (ii, a, o), one trip of the loop adds the eight slabs to the accumulator,
  the accumulator starts at zero, and the result is the accumulator minus one.
-/
import proofs.«130838_j5806795784869_2_alg».proof.Proof.Gen.KernelIdeal.Skeleton
import proofs.«130838_j5806795784869_2_alg».proof.Proof.KernelIdeal.Step
import proofs.«130838_j5806795784869_2_alg».proof.Proof.KernelSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Idealize.ShloMosaic Idealize.ShloMosaic.ValueIdx
open scoped BigOperators

section Layout
variable {α : Type}

/-- Row `k` of the [128, 16, 128] array, with its unit axis dropped, a leading unit axis added and then repeated eight
    times, reads at (ii, a, o) the array at (a, k, o). -/
theorem rowL_apply (K : Nat) (k : Fin 16) (hk : k.val = K) (X : S128x16x128.Idx → α)
    (hs : S128x16x128.Slices ![0, K, 0] S128x1x128) (h1 : S128x1x128.ShapeCasts S128x128)
    (h2 : S128x128.ShapeCasts S1x128x128) (hb : S1x128x128.Broadcasts S8x128x128) (ii : Fin 8) (a o : Fin 128) :
    broadcastTo S8x128x128 (shapeCast S1x128x128 (shapeCast S128x128 (extractStridedSlice S128x1x128 ![0, K, 0] X hs) h1) h2) hb
      (ix3 ii a o) = X (ix3 a k o) := by
  refine (broadcastTo_apply _ hb (ix3 ii a o) (ix3 (0 : Fin 1) a o) (fun ax => ?_)).trans ?_
  · match ax with
    | ⟨0, _⟩ => rfl
    | ⟨1, _⟩ => rfl
    | ⟨2, _⟩ => rfl
  refine (shapeCast_ab_1ab_apply _ h2 0 a o).trans ?_
  refine (shapeCast_apply _ h1 (ix2 a o) (ix3 a (0 : Fin 1) o) ?_).trans ?_
  · rw [Shape.rowMajor_val_three, Shape.rowMajor_val_two]
    show (a.val * 1 + 0) * 128 + o.val = a.val * 128 + o.val
    omega
  exact slice3_axis1_apply K X hs a (0 : Fin 1) o k (by rw [hk]; rfl)

/-- Row `k` of the [8, 16, 128] array, with its unit axis dropped and put back and then repeated 128 times along it,
    reads at (ii, a, o) the array at (ii, k, o). -/
theorem rowR_apply (K : Nat) (k : Fin 16) (hk : k.val = K) (Y : S8x16x128.Idx → α)
    (hs : S8x16x128.Slices ![0, K, 0] S8x1x128) (h1 : S8x1x128.ShapeCasts S8x128)
    (h2 : S8x128.ShapeCasts S8x1x128) (hb : S8x1x128.Broadcasts S8x128x128) (ii : Fin 8) (a o : Fin 128) :
    broadcastTo S8x128x128 (shapeCast S8x1x128 (shapeCast S8x128 (extractStridedSlice S8x1x128 ![0, K, 0] Y hs) h1) h2) hb
      (ix3 ii a o) = Y (ix3 ii k o) := by
  refine (broadcastTo_apply _ hb (ix3 ii a o) (ix3 ii (0 : Fin 1) o) (fun ax => ?_)).trans ?_
  · match ax with
    | ⟨0, _⟩ => rfl
    | ⟨1, _⟩ => rfl
    | ⟨2, _⟩ => rfl
  refine (shapeCast_apply _ h2 (ix3 ii (0 : Fin 1) o) (ix2 ii o) ?_).trans ?_
  · rw [Shape.rowMajor_val_three, Shape.rowMajor_val_two]
    show ii.val * 128 + o.val = (ii.val * 1 + 0) * 128 + o.val
    omega
  refine (shapeCast_apply _ h1 (ix2 ii o) (ix3 ii (0 : Fin 1) o) ?_).trans ?_
  · rw [Shape.rowMajor_val_three, Shape.rowMajor_val_two]
    show (ii.val * 1 + 0) * 128 + o.val = ii.val * 128 + o.val
    omega
  exact slice3_axis1_apply K Y hs ii (0 : Fin 1) o k (by rw [hk]; rfl)

/-- Slab `c` of the [8, 128, 128] array, its leading unit axis dropped, reads at (a, o) the array at (c, a, o). -/
theorem slab_apply (C : Nat) (c : Fin 8) (hc : c.val = C) (Z : S8x128x128.Idx → α)
    (hs : S8x128x128.Slices ![C, 0, 0] S1x128x128) (h1 : S1x128x128.ShapeCasts S128x128) (a o : Fin 128) :
    shapeCast S128x128 (extractStridedSlice S1x128x128 ![C, 0, 0] Z hs) h1 (ix2 a o) = Z (ix3 c a o) := by
  refine (shapeCast_1ab_ab_apply _ h1 a o).trans ?_
  refine extractStridedSlice_apply _ Z hs _ (ix3 c a o) (fun ax => ?_)
  match ax with
  | ⟨0, _⟩ => show c.val = C + 0; omega
  | ⟨1, _⟩ => exact (Nat.zero_add _).symm
  | ⟨2, _⟩ => exact (Nat.zero_add _).symm

end Layout

section AtIdeal
variable {s : Shape} {φ : FTy}

/-- An absolute value at an index is the larger of the element and its negation. -/
theorem absf_apply (x : FVec Ideal s φ) (i : s.Idx) : absf x i = max (x i) (-(x i)) := rfl
/-- An exponential at an index is the exponential of the element. -/
theorem exp_apply (x : FVec Ideal s φ) (i : s.Idx) : exp x i = Ideal.exp (x i) := rfl

end AtIdeal

/-- |v1[a, k, o] − w[ii, k, o]|, as the larger of the difference and its negation. -/
def absDiff (v1 : FVec Ideal S128x16x128 .f32) (w : FVec Ideal S8x16x128 .f32) (ii : Fin 8) (a o : Fin 128) (k : Fin 16) : EReal :=
  max (v1 (ix3 a k o) - w (ix3 ii k o)) (-(v1 (ix3 a k o) - w (ix3 ii k o)))

/-- One term of the distance: the absolute difference of the two repeated rows `k`, read at (ii, a, o). -/
theorem term_apply (K : Nat) (k : Fin 16) (hk : k.val = K) (v1 : FVec Ideal S128x16x128 .f32) (w : FVec Ideal S8x16x128 .f32)
    (hs : S128x16x128.Slices ![0, K, 0] S128x1x128) (h1 : S128x1x128.ShapeCasts S128x128)
    (h2 : S128x128.ShapeCasts S1x128x128) (hb : S1x128x128.Broadcasts S8x128x128)
    (hs' : S8x16x128.Slices ![0, K, 0] S8x1x128) (h1' : S8x1x128.ShapeCasts S8x128)
    (h2' : S8x128.ShapeCasts S8x1x128) (hb' : S8x1x128.Broadcasts S8x128x128) (ii : Fin 8) (a o : Fin 128) :
    absf (subf
        (broadcastTo S8x128x128 (shapeCast S1x128x128 (shapeCast S128x128 (extractStridedSlice S128x1x128 ![0, K, 0] v1 hs) h1) h2) hb)
        (broadcastTo S8x128x128 (shapeCast S8x1x128 (shapeCast S8x128 (extractStridedSlice S8x1x128 ![0, K, 0] w hs') h1') h2') hb')
          : FVec Ideal S8x128x128 .f32) (ix3 ii a o) = absDiff v1 w ii a o k := by
  rw [absf_apply, subf_apply, rowL_apply K k hk v1 hs h1 h2 hb ii a o, rowR_apply K k hk w hs' h1' h2' hb' ii a o]
  rfl

/-! ## The identity casts, the zero start and the final subtraction -/

/-- The output rows' block passes through an identity cast. -/
theorem pay1_eq (v0 : Vec Ideal S128x16x128 .f32) : k1_pay1 v0 = v0 := shapeCast_self _ _

/-- The accumulator starts at zero. -/
theorem pay2_apply (a o : Fin 128) : k1_pay2 (F := Ideal) (ix2 a o) = 0 := by
  unfold k1_pay2
  simp only [shapeCast_self, broadcast_apply]
  exact Ideal.ofBits_zero_f32

/-- The fourth round's result is stored through an identity cast. -/
theorem pay3_eq (x : FVec Ideal S128x128 .f32) : k1_pay3 x = x := shapeCast_self _ _

/-- The result block is the accumulator minus the literal one. -/
theorem pay8_apply (A : Vec Ideal S128x128 .f32) (a o : Fin 128) :
    k1_pay8 A (ix2 a o) = A (ix2 a o) - Ideal.ofBits .f32 0x3F800000#32 := by
  unfold k1_pay8
  simp only [subf_apply, broadcast_apply]
  rfl

/-- The trip's eight rows pass through an identity cast. -/
theorem pay9_eq (v16 : Vec Ideal S8x16x128 .f32) : k1_pay9 v16 = v16 := shapeCast_self _ _

/-! ## The distance, four groups of terms -/

/-- Terms 0 to 3, added onto zero. -/
theorem pay10_apply (v1 : FVec Ideal S128x16x128 .f32) (v16 : Vec Ideal S8x16x128 .f32) (ii : Fin 8) (a o : Fin 128) :
    k1_pay10 v1 v16 (ix3 ii a o) = 0 + absDiff v1 v16 ii a o 0 + absDiff v1 v16 ii a o 1 + absDiff v1 v16 ii a o 2 + absDiff v1 v16 ii a o 3 := by
  unfold k1_pay10
  simp only [pay9_eq, addf_apply, broadcast_apply, term_apply 0 0 rfl, term_apply 1 1 rfl, term_apply 2 2 rfl, term_apply 3 3 rfl]
  exact congrArg (· + _ + _ + _ + _) Ideal.ofBits_zero_f32

/-- Terms 4 to 8. -/
theorem pay12_apply (v1 : FVec Ideal S128x16x128 .f32) (w : FVec Ideal S8x16x128 .f32) (v62 : FVec Ideal S8x128x128 .f32)
    (ii : Fin 8) (a o : Fin 128) :
    k1_pay12 v1 w v62 (k1_pay11 v1) (ix3 ii a o) = v62 (ix3 ii a o) + absDiff v1 w ii a o 4 + absDiff v1 w ii a o 5 + absDiff v1 w ii a o 6 + absDiff v1 w ii a o 7 + absDiff v1 w ii a o 8 := by
  unfold k1_pay12 k1_pay11
  simp only [addf_apply, term_apply 4 4 rfl, term_apply 5 5 rfl, term_apply 6 6 rfl, term_apply 7 7 rfl, term_apply 8 8 rfl]

/-- Terms 9 to 14. -/
theorem pay15_apply (v1 : FVec Ideal S128x16x128 .f32) (w : FVec Ideal S8x16x128 .f32) (v117 : FVec Ideal S8x128x128 .f32)
    (ii : Fin 8) (a o : Fin 128) :
    k1_pay15 v1 w v117 (k1_pay13 v1) (k1_pay14 w) (ix3 ii a o) = v117 (ix3 ii a o) + absDiff v1 w ii a o 9 + absDiff v1 w ii a o 10 + absDiff v1 w ii a o 11 + absDiff v1 w ii a o 12 + absDiff v1 w ii a o 13 + absDiff v1 w ii a o 14 := by
  unfold k1_pay15 k1_pay13 k1_pay14
  simp only [addf_apply, term_apply 9 9 rfl, term_apply 10 10 rfl, term_apply 11 11 rfl, term_apply 12 12 rfl, term_apply 13 13 rfl, term_apply 14 14 rfl]

/-- Term 15, and the exponential of zero minus the sum. -/
theorem pay16_apply (v1 : FVec Ideal S128x16x128 .f32) (w : FVec Ideal S8x16x128 .f32) (v183 : FVec Ideal S8x128x128 .f32)
    (ii : Fin 8) (a o : Fin 128) :
    k1_pay16 v1 w v183 (ix3 ii a o) = Ideal.exp (0 - (v183 (ix3 ii a o) + absDiff v1 w ii a o 15)) := by
  unfold k1_pay16
  simp only [exp_apply, subf_apply, addf_apply, broadcast_apply, term_apply 15 15 rfl]
  exact congrArg (fun z => Ideal.exp (z - _)) Ideal.ofBits_zero_f32

/-- THE SLAB OF EXPONENTIALS at (ii, a, o) is exp (−∑ₖ |v1[a, k, o] − v16[ii, k, o]|). -/
theorem expSlab_apply (v1 : FVec Ideal S128x16x128 .f32) (v16 : Vec Ideal S8x16x128 .f32) (ii : Fin 8) (a o : Fin 128) :
    Hand.expSlab v1 v16 (ix3 ii a o)
      = Ideal.exp (-(∑ k : Fin 16, max (v1 (ix3 a k o) - v16 (ix3 ii k o)) (-(v1 (ix3 a k o) - v16 (ix3 ii k o))))) := by
  unfold Hand.expSlab Hand.distSlab
  rw [pay16_apply, pay15_apply, pay12_apply, pay10_apply, pay9_eq,
    Cert.KernelSum.nest16 (fun k => absDiff v1 v16 ii a o k), zero_sub]
  rfl

/-! ## The accumulator's eight rounds -/

/-- Round 0 of the trip's stores: the accumulator plus slab 0 of the exponentials. -/
theorem pay17_apply (v1 : FVec Ideal S128x16x128 .f32) (w : FVec Ideal S8x16x128 .f32) (v183 : FVec Ideal S8x128x128 .f32)
    (A : Vec Ideal S128x128 .f32) (a o : Fin 128) :
    k1_pay17 v1 w v183 A (ix2 a o) = A (ix2 a o) + k1_pay16 v1 w v183 (ix3 (0 : Fin 8) a o) := by
  unfold k1_pay17
  simp only [shapeCast_self, addf_apply, slab_apply 0 0 rfl]

/-- Round 1 of the trip's stores: the accumulator plus slab 1 of the exponentials. -/
theorem pay18_apply (v1 : FVec Ideal S128x16x128 .f32) (w : FVec Ideal S8x16x128 .f32) (v183 : FVec Ideal S8x128x128 .f32)
    (A : Vec Ideal S128x128 .f32) (a o : Fin 128) :
    k1_pay18 v1 w v183 A (ix2 a o) = A (ix2 a o) + k1_pay16 v1 w v183 (ix3 (1 : Fin 8) a o) := by
  unfold k1_pay18
  simp only [shapeCast_self, addf_apply, slab_apply 1 1 rfl]

/-- Round 2 of the trip's stores: the accumulator plus slab 2 of the exponentials. -/
theorem pay19_apply (v1 : FVec Ideal S128x16x128 .f32) (w : FVec Ideal S8x16x128 .f32) (v183 : FVec Ideal S8x128x128 .f32)
    (A : Vec Ideal S128x128 .f32) (a o : Fin 128) :
    k1_pay19 v1 w v183 A (ix2 a o) = A (ix2 a o) + k1_pay16 v1 w v183 (ix3 (2 : Fin 8) a o) := by
  unfold k1_pay19
  simp only [shapeCast_self, addf_apply, slab_apply 2 2 rfl]

/-- Round 3 of the trip's stores: the accumulator plus slab 3 of the exponentials. -/
theorem pay20_apply (v1 : FVec Ideal S128x16x128 .f32) (w : FVec Ideal S8x16x128 .f32) (v183 : FVec Ideal S8x128x128 .f32)
    (A : Vec Ideal S128x128 .f32) (a o : Fin 128) :
    k1_pay20 v1 w v183 A (ix2 a o) = A (ix2 a o) + k1_pay16 v1 w v183 (ix3 (3 : Fin 8) a o) := by
  unfold k1_pay20
  simp only [addf_apply, slab_apply 3 3 rfl]

/-- Round 4 of the trip's stores: the accumulator plus slab 4 of the exponentials. -/
theorem pay4_apply (v197 : FVec Ideal S8x128x128 .f32) (A : Vec Ideal S128x128 .f32) (a o : Fin 128) :
    k1_pay4 v197 A (ix2 a o) = A (ix2 a o) + v197 (ix3 (4 : Fin 8) a o) := by
  unfold k1_pay4
  simp only [shapeCast_self, addf_apply, slab_apply 4 4 rfl]

/-- Round 5 of the trip's stores: the accumulator plus slab 5 of the exponentials. -/
theorem pay5_apply (v197 : FVec Ideal S8x128x128 .f32) (A : Vec Ideal S128x128 .f32) (a o : Fin 128) :
    k1_pay5 v197 A (ix2 a o) = A (ix2 a o) + v197 (ix3 (5 : Fin 8) a o) := by
  unfold k1_pay5
  simp only [shapeCast_self, addf_apply, slab_apply 5 5 rfl]

/-- Round 6 of the trip's stores: the accumulator plus slab 6 of the exponentials. -/
theorem pay6_apply (v197 : FVec Ideal S8x128x128 .f32) (A : Vec Ideal S128x128 .f32) (a o : Fin 128) :
    k1_pay6 v197 A (ix2 a o) = A (ix2 a o) + v197 (ix3 (6 : Fin 8) a o) := by
  unfold k1_pay6
  simp only [shapeCast_self, addf_apply, slab_apply 6 6 rfl]

/-- Round 7 of the trip's stores: the accumulator plus slab 7 of the exponentials. -/
theorem pay7_apply (v197 : FVec Ideal S8x128x128 .f32) (A : Vec Ideal S128x128 .f32) (a o : Fin 128) :
    k1_pay7 v197 A (ix2 a o) = A (ix2 a o) + v197 (ix3 (7 : Fin 8) a o) := by
  unfold k1_pay7
  simp only [shapeCast_self, addf_apply, slab_apply 7 7 rfl]

/-- ONE TRIP adds the eight slabs of exponentials to the accumulator. -/
theorem tripStep_apply (v1 : FVec Ideal S128x16x128 .f32) (v16 : Vec Ideal S8x16x128 .f32) (A : Vec Ideal S128x128 .f32)
    (a o : Fin 128) :
    Hand.tripStep v1 v16 A (ix2 a o) = A (ix2 a o) + ∑ ii : Fin 8, Hand.expSlab v1 v16 (ix3 ii a o) := by
  unfold Hand.tripStep
  rw [pay7_apply, pay6_apply, pay5_apply, pay4_apply, pay3_eq, pay20_apply, pay19_apply, pay18_apply, pay17_apply]
  exact Cert.KernelSum.nest8 (A (ix2 a o)) (fun ii => Hand.expSlab v1 v16 (ix3 ii a o))

end Cert.KernelIdeal.HandValue

end
-- ==== Proof.KernelIdeal.R1Block.lean ====
/-
  Region 1's output block read at an index, over the extended reals: at (a, o) it is
  (∑ p, exp (−∑ₖ |x1[a, k, o] − x0[p, k, o]|)) − 1, the sum over all 256 rows of the first input block, eight per
  trip of the loop.
-/
import proofs.«130838_j5806795784869_2_alg».proof.Proof.Gen.KernelIdeal
import proofs.«130838_j5806795784869_2_alg».proof.Proof.KernelIdeal.R1Value
import proofs.«130838_j5806795784869_2_alg».proof.Proof.KernelIdeal.PayValue
import proofs.«130838_j5806795784869_2_alg».proof.Proof.KernelSum

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand
open scoped BigOperators

/-- The loop runs thirty-two trips. -/
theorem trips_eq : k1_t1_loop.trips = 32 := by decide +kernel

/-- The eight rows trip `t` loads are rows `8 t, …, 8 t + 7` of the first input block. -/
theorem ld_rows (x0 : Vec Ideal S256x16x128 .f32) (t : ℕ) (h : t < k1_t1_loop.trips) (ii : Fin 8) (k : Fin 16) (o : Fin 128)
    (hlt : 8 * t + ii.val < 256) :
    View.ld x0 (Rect.unit (k1_off1 ⟨t, h⟩) S8x16x128.size (k1_off1_inb ⟨t, h⟩)) (ix3 ii k o)
      = x0 (ix3 ⟨8 * t + ii.val, hlt⟩ k o) := by
  have e := k1_off1_eq ⟨t, h⟩
  refine congrArg x0 (funext fun ax => Fin.ext ?_)
  match ax with
  | ⟨0, _⟩ =>
    show k1_off1 ⟨t, h⟩ 0 + 1 * ii.val = 8 * t + ii.val
    rw [e]
    show 8 * t + 1 * ii.val = 8 * t + ii.val
    omega
  | ⟨1, _⟩ =>
    show k1_off1 ⟨t, h⟩ 1 + 1 * k.val = k.val
    rw [e]
    show 0 + 1 * k.val = k.val
    omega
  | ⟨2, _⟩ =>
    show k1_off1 ⟨t, h⟩ 2 + 1 * o.val = o.val
    rw [e]
    show 0 + 1 * o.val = o.val
    omega

/-- exp (−∑ₖ |x1[a, k, o] − x0[p, k, o]|): row `p`'s term of the feature at (a, o). -/
def pairTerm (x0 : Vec Ideal S256x16x128 .f32) (x1 : Vec Ideal S128x16x128 .f32) (a o : Fin 128) (p : Fin 256) : EReal :=
  Ideal.exp (-(∑ k : Fin 16, max (x1 (ix3 a k o) - x0 (ix3 p k o)) (-(x1 (ix3 a k o) - x0 (ix3 p k o)))))

/-- The accumulator after all the trips is the sum of the 256 rows' terms. -/
theorem accAt_apply (x0 : Vec Ideal S256x16x128 .f32) (x1 : Vec Ideal S128x16x128 .f32) (a o : Fin 128) :
    accAt x1 x0 k1_t1_loop.trips (ix2 a o) = ∑ p : Fin 256, pairTerm x0 x1 a o p := by
  have h0 : (fun t : ℕ => (accAt x1 x0 t (ix2 a o) : EReal)) 0 = 0 := by
    show k1_pay2 (F := Ideal) (ix2 a o) = 0
    exact pay2_apply a o
  have hs : ∀ (t : ℕ) (ht : t < 32), (fun t : ℕ => (accAt x1 x0 t (ix2 a o) : EReal)) (t + 1)
      = (fun t : ℕ => (accAt x1 x0 t (ix2 a o) : EReal)) t
        + ∑ i : Fin 8, pairTerm x0 x1 a o ⟨8 * t + i.val, Cert.KernelSum.group_lt ht i⟩ := by
    intro t ht
    have h : t < k1_t1_loop.trips := by rw [trips_eq]; exact ht
    show accAt x1 x0 (t + 1) (ix2 a o) = accAt x1 x0 t (ix2 a o) + _
    rw [accAt_succ x1 x0 t h, tripStep_apply]
    refine congrArg (_ + ·) (Finset.sum_congr rfl fun ii _ => ?_)
    rw [expSlab_apply]
    unfold pairTerm
    refine congrArg (fun z => Ideal.exp (-z)) (Finset.sum_congr rfl fun k _ => ?_)
    rw [ld_rows x0 t h ii k o (Cert.KernelSum.group_lt ht ii)]
  have key0 := @Cert.KernelSum.run32 EReal _ (pairTerm x0 x1 a o) (fun t : ℕ => (accAt x1 x0 t (ix2 a o) : EReal))
  have key := key0 h0 hs
  -- stated for any n equal to 32, then applied at the trip count
  have gen : ∀ n : ℕ, n = 32 → accAt x1 x0 n (ix2 a o) = ∑ p : Fin 256, pairTerm x0 x1 a o p := by
    intro n hn
    subst hn
    exact key
  exact gen _ trips_eq

/-- REGION 1'S OUTPUT BLOCK at (a, o): the sum over the 256 rows of exp (−distance), minus one. -/
theorem outOf1_apply (c : Dev nD) (i : grid1.Coords)
    (arg1 : Memref sig .tc .vmem S256x16x128 .f32) (harg1 : arg1.IsWhole) (arg2 : Memref sig .tc .vmem S128x16x128 .f32) (harg2 : arg2.IsWhole)
    (arg3 : Memref sig .tc .vmem S128x128 .f32) (harg3 : arg3.IsWhole) (arg4 : Memref sig .tc .vmem S128x128 .f32) (harg4 : arg4.IsWhole)
    (x0 : Vec Ideal S256x16x128 .f32) (x1 : Vec Ideal S128x16x128 .f32) (a o : Fin 128) :
    Hand.outOf1 c i arg1 harg1 arg2 harg2 arg3 harg3 arg4 harg4 x0 x1 (ix2 a o)
      = (∑ p : Fin 256, Ideal.exp (-(∑ k : Fin 16, max (x1 (ix3 a k o) - x0 (ix3 p k o)) (-(x1 (ix3 a k o) - x0 (ix3 p k o))))))
        - Ideal.ofBits .f32 0x3F800000#32 := by
  rw [outOf1_eq, pay8_apply, pay1_eq, accAt_apply]
  rfl

end Cert.KernelIdeal.HandValue

end
-- ==== Proof.KernelIdeal.R1Array.lean ====
/-
  Region 1's output array, at the ideal values. Each of the two grid points writes one block of 128 rows; block t
  holds, at (a, o), the pairwise feature of row t·128 + a at feature o, computed from the whole input array (window 0)
  and its rows t·128 … t·128 + 127 (window 1). The two blocks tile the array, so it ends holding the feature array
  of the input array; with the value of the input array (the projected matrices) that is the specification's
  feature array, and the last host stretch puts it beside the first argument.
-/
import proofs.«130838_j5806795784869_2_alg».proof.Proof.KernelIdeal.MatValue
import proofs.«130838_j5806795784869_2_alg».proof.Proof.KernelIdeal.R1Block
import proofs.«130838_j5806795784869_2_alg».proof.Proof.KernelIdeal.Run
import proofs.«130838_j5806795784869_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.StableHlo
open Idealize.ShloMosaic.Pipeline (Dat)
open Idealize.ShloMosaic.ValueIdx
open Cert.KernelIdeal Cert.KernelIdeal.Gen
open scoped BigOperators

/-! ## The windows' blocks -/

section Blocks
variable {F : FTy → Type} [FloatOps F]
variable (V : (c : Dev nD) → (b : Ref sig .tc) → Buf (Elt F) ((c : Thread nD τ).loc b))

/-- The grid has two points. -/
theorem N1_eq : cfg1.N = 2 := N_1

/-- Input window 0's block is the whole input array at either grid point. -/
theorem iblk1_0_eq (c : Dev nD) (t : Fin cfg1.N) :
    Hand.iblk1 V c 0 t = (V c main_v3 : S256x16x128.Idx → Elt F .f32) := by
  rcases fin_N1 t with rfl | rfl
  · have hz' : (fun a => win1_0.index t1_0 a * main_v3.ty.shape.size a) = fun _ => 0 :=
      funext fun a => by fin_cases a <;> decide
    exact Memref.read_access_unit_zero (Elt F) main_v3 hz' (fun a => by rw [congrFun hz' a]; simp) _
  · have hz' : (fun a => win1_0.index t1_1 a * main_v3.ty.shape.size a) = fun _ => 0 :=
      funext fun a => by fin_cases a <;> decide
    exact Memref.read_access_unit_zero (Elt F) main_v3 hz' (fun a => by rw [congrFun hz' a]; simp) _

/-- The printed index maps of window 1 (rows of the input array) and window 2 (rows of the output array), decided
    over the grid: block t on the row axis, block 0 on the others. -/
theorem idx_facts1 : ∀ t : Fin cfg1.N, win1_1.index t (0 : Fin 3) = t.val ∧ win1_1.index t (1 : Fin 3) = 0
    ∧ win1_1.index t (2 : Fin 3) = 0 ∧ win1_2.index t (0 : Fin 2) = t.val ∧ win1_2.index t (1 : Fin 2) = 0 :=
  (by decide +kernel : ∀ t : Fin grid1.N, _)

/-- Input window 1's block at point `t` is rows `t·128 …` of the input array. -/
theorem iblk1_1_apply (c : Dev nD) (t : Fin cfg1.N) (a : Fin 128) (k : Fin 16) (o : Fin 128) :
    Hand.iblk1 V c 1 t (ix3 a k o)
      = (V c main_v3 : S256x16x128.Idx → Elt F .f32)
          (ix3 ⟨t.val * 128 + a.val, by have := t.isLt; have := N1_eq; have := a.isLt; omega⟩ k o) := by
  show (V c main_v3 : S256x16x128.Idx → Elt F .f32) (((cfg1.win 1).blk t).view.emb (ix3 a k o)) = _
  refine congrArg _ (funext fun ax => Fin.ext ?_)
  obtain ⟨e0, e1, e2, -, -⟩ := idx_facts1 t
  match ax with
  | ⟨0, _⟩ => show win1_1.index t (0 : Fin 3) * 128 + 1 * a.val = t.val * 128 + a.val; rw [e0]; omega
  | ⟨1, _⟩ => show win1_1.index t (1 : Fin 3) * 16 + 1 * k.val = k.val; rw [e1]; omega
  | ⟨2, _⟩ => show win1_1.index t (2 : Fin 3) * 128 + 1 * o.val = o.val; rw [e2]; omega

end Blocks

/-! ## The feature array of an input array, and region 1's output array -/

/-- The pairwise features of an array `M : [256, 16, 128]`: at `(q, o)`, the sum over the rows `p` of
    `exp (−∑ k, |M[q, k, o] − M[p, k, o]|)` (`|z| = max z (−z)`), minus one (the literal kept as its f32 pattern). -/
def obOf (M : S256x16x128.Idx → EReal) : S256x128.Idx → EReal := fun j =>
  (∑ p : Fin 256, Ideal.exp (-(∑ k : Fin 16,
      max (M (ix3 (j 0) k (j 1)) - M (ix3 p k (j 1))) (-(M (ix3 (j 0) k (j 1)) - M (ix3 p k (j 1)))))))
    - Ideal.ofBits .f32 0x3F800000#32

theorem obOf_apply (M : S256x16x128.Idx → EReal) (q : Fin 256) (o : Fin 128) :
    obOf M (ix2 q o) = (∑ p : Fin 256, Ideal.exp (-(∑ k : Fin 16,
        max (M (ix3 q k o) - M (ix3 p k o)) (-(M (ix3 q k o) - M (ix3 p k o))))))
      - Ideal.ofBits .f32 0x3F800000#32 := rfl

section Array
variable (V : (c : Dev nD) → (b : Ref sig .tc) → Buf (Elt Ideal) ((c : Thread nD τ).loc b))

/-- An index of the output array is in point `t`'s block iff each coordinate is in the block's range on its axis. -/
theorem mem_blk1_2 (t : Fin cfg1.N) (i : S256x128.Idx) :
    i ∈ ((cfg1.win 2).blk t).view.set ↔ ∀ a : Fin 2, win1_2.index t a * S128x128.size a ≤ (i a).val
      ∧ (i a).val < win1_2.index t a * S128x128.size a + S128x128.size a := by
  show i ∈ ((View.whole main_v4).slice (win1_2.rect t)).set ↔ _
  rw [View.set_slice_whole, Rect.mem_set_unit]
  exact Iff.rfl

/-- What point `t` writes back is block `t` of the feature array of the input array as the region finds it. -/
theorem flushed1_2_eq (c : Dev nD) (t : Fin cfg1.N) :
    (Hand.dat1 V c).flushed 2 t
      = ((cfg1.win 2).blk t).view.read (Elt Ideal) (obOf (V c main_v3 : S256x16x128.Idx → EReal)) := by
  show (cfg1.win 2).cut (grid1.coords t) ((Hand.dat1 V c).after 2 t) = _
  rw [Hand.after1_2]
  funext j
  obtain ⟨a, o, rfl⟩ : ∃ (a : Fin 128) (o : Fin 128), j = ix2 a o := ⟨j 0, j 1, eq_ix2 j⟩
  show Hand.out1_2 V c t (ix2 a o)
    = obOf (V c main_v3 : S256x16x128.Idx → EReal) (((cfg1.win 2).blk t).view.emb (ix2 a o))
  have hemb : ((cfg1.win 2).blk t).view.emb (ix2 a o)
      = ix2 (⟨t.val * 128 + a.val, by have := t.isLt; have := N1_eq; have := a.isLt; omega⟩ : Fin 256) o :=
    funext fun ax => Fin.ext (by
      obtain ⟨-, -, -, e3, e4⟩ := idx_facts1 t
      match ax with
      | ⟨0, _⟩ => show win1_2.index t (0 : Fin 2) * 128 + 1 * a.val = t.val * 128 + a.val; rw [e3]; omega
      | ⟨1, _⟩ => show win1_2.index t (1 : Fin 2) * 128 + 1 * o.val = o.val; rw [e4]; omega)
  rw [hemb, obOf_apply]
  unfold Hand.out1_2
  refine (outOf1_apply c _ _ _ _ _ _ _ _ _ (Hand.iblk1 V c 0 t) (Hand.iblk1 V c 1 t) a o).trans ?_
  simp only [iblk1_1_apply, iblk1_0_eq]

/-- The two blocks tile the output array, so it ends holding the feature array of the input array. -/
theorem arrAt1_2 (c : Dev nD) :
    ((Hand.dat1 V c).arrAt 2 cfg1.N : S256x128.Idx → EReal) = obOf (V c main_v3 : S256x16x128.Idx → EReal) :=
  (Hand.dat1 V c).arrAt_eq_of_cover 2 (obOf (V c main_v3 : S256x16x128.Idx → EReal)) (fun t _ => flushed1_2_eq V c t) fun i => by
    have hi0 : (i 0 : Nat) < 256 := (i 0).isLt
    have hi1 : (i 1 : Nat) < 128 := (i 1).isLt
    have hN := N1_eq
    refine ⟨⟨(i 0 : Nat) / 128, by omega⟩, flush1_2 _, ?_⟩
    rw [mem_blk1_2]
    obtain ⟨-, -, -, e3, e4⟩ := idx_facts1 ⟨(i 0 : Nat) / 128, by omega⟩
    intro a
    match a with
    | ⟨0, _⟩ =>
      show win1_2.index ⟨(i 0 : Nat) / 128, _⟩ (0 : Fin 2) * 128 ≤ (i 0 : Nat)
        ∧ (i 0 : Nat) < win1_2.index ⟨(i 0 : Nat) / 128, _⟩ (0 : Fin 2) * 128 + 128
      rw [e3]; show (i 0 : Nat) / 128 * 128 ≤ (i 0 : Nat) ∧ (i 0 : Nat) < (i 0 : Nat) / 128 * 128 + 128; omega
    | ⟨1, _⟩ =>
      show win1_2.index ⟨(i 0 : Nat) / 128, _⟩ (1 : Fin 2) * 128 ≤ (i 1 : Nat)
        ∧ (i 1 : Nat) < win1_2.index ⟨(i 0 : Nat) / 128, _⟩ (1 : Fin 2) * 128 + 128
      rw [e4]; omega

end Array

/-! ## The run's values -/

section Run
variable (m : (ℓ : Loc nD τ sig) → Buf (Elt Ideal) ℓ) (ρ : Dev nD → PrngReg)

/-- The feature array of the array region 1 reads is the specification's: that array holds the projected matrices,
    `M[n, o, k]` at `(n, k, o)`. -/
theorem obOf_mat (c : Dev nD) :
    obOf (Hand.W3 m ρ c (Proc.devRef .tc main_v3) : S256x16x128.Idx → EReal)
      = Cert.Spec.OB (m ((c : Thread nD τ).loc main_arg0)) (m ((c : Thread nD τ).loc main_arg1)) := by
  funext j
  obtain ⟨q, o, rfl⟩ : ∃ (q : Fin 256) (o : Fin 128), j = ix2 q o := ⟨j 0, j 1, eq_ix2 j⟩
  rw [obOf_apply, Cert.Spec.OB_apply]
  unfold Cert.Spec.ob Cert.Spec.dist
  simp only [v3_mat m ρ c]

/-- Region 1's output array, at its exit, is the specification's feature array of the two arguments as launched. -/
theorem kernel_ob (c : Dev nD) :
    (Hand.W4 m ρ c (Proc.devRef .tc main_v4) : S256x128.Idx → EReal)
      = Cert.Spec.OB (m ((c : Thread nD τ).loc main_arg0)) (m ((c : Thread nD τ).loc main_arg1)) := by
  have e : (Hand.W4 m ρ c (Proc.devRef .tc main_v4) : S256x128.Idx → EReal)
      = ((Hand.dat1 (F := Ideal) (Hand.V3 m ρ) c).arrAt 2 cfg1.N : S256x128.Idx → EReal) := Hand.W4_v4 m ρ c
  exact (e.trans (arrAt1_2 (Hand.V3 m ρ) c)).trans (obOf_mat m ρ c)

/-- At region 1's exit the first argument is as launched. -/
theorem W4_main_arg0 (c : Dev nD) :
    (Hand.W4 m ρ c (Proc.devRef .tc main_arg0) : S256x512.Idx → EReal) = m ((c : Thread nD τ).loc main_arg0) :=
  (Hand.hostOps2_keeps (Hand.W4 m ρ c) main_arg0 (by decide)).symm.trans (Hand.W5_main_arg0 m ρ c)

/-- The result: the first argument and the specification's feature array side by side along axis 1. -/
theorem kernel_result (c : Dev nD) :
    (Hand.W5 m ρ c (Proc.devRef .tc main_v5) : S256x640.Idx → EReal)
      = concatenate S256x640 1 [⟨S256x512, m ((c : Thread nD τ).loc main_arg0)⟩,
          ⟨S256x128, Cert.Spec.OB (m ((c : Thread nD τ).loc main_arg0)) (m ((c : Thread nD τ).loc main_arg1))⟩]
          concatenates_S256x512_S256x128_S256x640_d1 := by
  have e : (Hand.W5 m ρ c (Proc.devRef .tc main_v5) : S256x640.Idx → EReal)
      = concatenate S256x640 1 [⟨S256x512, (Hand.W4 m ρ c (Proc.devRef .tc main_arg0) : S256x512.Idx → EReal)⟩,
          ⟨S256x128, (Hand.W4 m ρ c (Proc.devRef .tc main_v4) : S256x128.Idx → EReal)⟩]
          concatenates_S256x512_S256x128_S256x640_d1 := by
    show (StableHlo.after (hostOps2 (F := Ideal)) (Hand.W4 m ρ c) (Proc.devRef .tc main_v5) : S256x640.Idx → EReal) = _
    dsimp only [hostOps2]; after_results
  rw [e, kernel_ob, W4_main_arg0]

end Run

end Cert.KernelIdeal.HandValue

end
-- ==== Proof.RefValue.lean ====
/-
  The reference's result, read index by index: it is the specification's feature array beside x.
-/
import proofs.«130838_j5806795784869_2_alg».proof.Proof.Gen.ReferenceIdeal.Run
import proofs.«130838_j5806795784869_2_alg».proof.Proof.Gen.ReferenceIdeal.Read
import proofs.«130838_j5806795784869_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

variable (x0 : (⟨S256x512, .f32⟩ : BufTy).Contents (Elt Ideal)) (x1 : (⟨S512x128x16, .f32⟩ : BufTy).Contents (Elt Ideal))

/-- The reshaped product read at (q, o, k) is M[q, o, k] = ∑ f, x[q, f] · T[f, o, k]: the flat column o·16 + k of the
    [256, 2048] product is the pair (o, k), on both reshapes. -/
theorem v2_eq (q : Fin 256) (o : Fin 128) (k : Fin 16) :
    val_main_v2 (F := Ideal) x0 x1 (ix3 q o k) = Cert.Spec.Mat x0 x1 q o k := by
  rw [val_main_v2_apply, val_main_v1_apply]
  unfold Cert.Spec.Mat
  refine Finset.sum_congr rfl fun f _ => ?_
  rw [val_main_v0_apply]
  have hq : q.val < 256 := q.isLt
  have ho : o.val < 128 := o.isLt
  have hk : k.val < 16 := k.isLt
  have hf : f.val < 512 := f.isLt
  have el : lidx_main_v1 (idx_main_v2 (ix3 q o k)) f = ix2 q f := funext fun a => Fin.ext (by
    match a with
    | ⟨0, _⟩ => show ((q.val * 128 + o.val) * 16 + k.val) / 2048 = q.val; omega
    | ⟨1, _⟩ => rfl)
  have er : idx_main_v0 (ridx_main_v1 (idx_main_v2 (ix3 q o k)) f) = ix3 f o k := funext fun a => Fin.ext (by
    match a with
    | ⟨0, _⟩ => show (f.val * 2048 + ((q.val * 128 + o.val) * 16 + k.val) % 2048) / 2048 = f.val; omega
    | ⟨1, _⟩ => show (f.val * 2048 + ((q.val * 128 + o.val) * 16 + k.val) % 2048) / 16 % 128 = o.val; omega
    | ⟨2, _⟩ => show (f.val * 2048 + ((q.val * 128 + o.val) * 16 + k.val) % 2048) % 16 = k.val; omega)
  rw [el, er]

/-- The difference array at (p, q, o, k) is M[q, o, k] − M[p, o, k]: the first operand is broadcast along axis 0, the
    second along axis 1. -/
theorem v7_eq (p q : Fin 256) (o : Fin 128) (k : Fin 16) :
    val_main_v7 (F := Ideal) x0 x1 (ix4 p q o k) = Cert.Spec.Mat x0 x1 q o k - Cert.Spec.Mat x0 x1 p o k := by
  rw [val_main_v7_apply, val_main_v5_apply, val_main_v3_apply, val_main_v6_apply, val_main_v4_apply]
  have e1 : idx_main_v3 (idx_main_v5 (ix4 p q o k)) = ix3 q o k := funext fun a => by
    match a with
    | ⟨0, _⟩ => rfl
    | ⟨1, _⟩ => rfl
    | ⟨2, _⟩ => rfl
  have e2 : idx_main_v4 (idx_main_v6 (ix4 p q o k)) = ix3 p o k := funext fun a => by
    match a with
    | ⟨0, _⟩ => rfl
    | ⟨1, _⟩ => rfl
    | ⟨2, _⟩ => rfl
  rw [e1, e2, v2_eq, v2_eq]
  rfl

/-- The sum over the kernel dimension at (p, q, o) is the distance d[q, p, o]. -/
theorem v9_eq (p q : Fin 256) (o : Fin 128) :
    val_main_v9 (F := Ideal) x0 x1 (ix3 p q o) = Cert.Spec.dist x0 x1 q p o := by
  rw [val_main_v9_apply, val_main_cst_apply, Ideal.ofBits_def, Ideal.ofBits_zero_f32, zero_add]
  unfold Cert.Spec.dist
  refine Finset.sum_congr rfl fun k _ => ?_
  have e : idx_main_v9 (ix3 p q o) k = ix4 p q o k := funext fun a => by
    match a with
    | ⟨0, _⟩ => rfl
    | ⟨1, _⟩ => rfl
    | ⟨2, _⟩ => rfl
    | ⟨3, _⟩ => rfl
  rw [e, val_main_v8_apply, v7_eq]
  rfl

/-- THE REFERENCE'S FEATURE ARRAY IS THE SPECIFICATION'S. -/
theorem ref_ob : val_main_v14 (F := Ideal) x0 x1 = Cert.Spec.OB x0 x1 := by
  funext j
  obtain ⟨q, o, rfl⟩ : ∃ (q : Fin 256) (o : Fin 128), j = ix2 q o := ⟨j 0, j 1, eq_ix2 j⟩
  rw [Cert.Spec.OB_apply, val_main_v14_apply, val_main_v12_apply, val_main_v13_apply, val_main_cst_1_apply,
    val_main_cst_0_apply, Ideal.ofBits_def, Ideal.ofBits_def, Ideal.ofBits_zero_f32, zero_add]
  unfold Cert.Spec.ob
  refine congrArg (· - _) (Finset.sum_congr rfl fun p _ => ?_)
  have e : idx_main_v12 (ix2 q o) p = ix3 p q o := funext fun a => by
    match a with
    | ⟨0, _⟩ => rfl
    | ⟨1, _⟩ => rfl
    | ⟨2, _⟩ => rfl
  rw [e, val_main_v11_apply, val_main_v10_apply, v9_eq]
  rfl

/-- The reference's result is x beside the specification's feature array. -/
theorem ref_result : val_main_v15 (F := Ideal) x0 x1
    = concatenate S256x640 1 [⟨S256x512, x0⟩, ⟨S256x128, Cert.Spec.OB x0 x1⟩] concatenates_S256x512_S256x128_S256x640_d1 := by
  unfold val_main_v15
  rw [ref_ob]

end Cert.ReferenceIdeal.RefValue

end
-- ==== Proof.Algebraic.lean ====
/-
  The two idealized programs compute one function. Over the extended reals the kernel's result — the product
  M = x · T' taken whole, then for every row q and feature o the sum over all rows p of exp (−∑ₖ |M[q,o,k] − M[p,o,k]|),
  less one, set beside x — and the reference's — the same differences laid out as one four-dimensional array and
  reduced axis by axis — are both the specification's array: the two differ only in how finite sums are grouped.
  From memories that agree on the arguments, both programs run, end at that one array, and leave the arguments
  unchanged.
-/
import proofs.«130838_j5806795784869_2_alg».proof.Defs
import proofs.«130838_j5806795784869_2_alg».proof.Proof.KernelIdeal.Run
import proofs.«130838_j5806795784869_2_alg».proof.Proof.KernelIdeal.R1Array
import proofs.«130838_j5806795784869_2_alg».proof.Proof.RefValue
import proofs.«130838_j5806795784869_2_alg».proof.Proof.Gen.ReferenceIdeal.Run
import proofs.«130838_j5806795784869_2_alg».proof.Proof.Gen.ReferenceIdeal.Read
import proofs.«130838_j5806795784869_2_alg».proof.Proof.Gen.Pre_finite_inputs

noncomputable section

namespace Cert.Proof

open Idealize.ShloMosaic Idealize.ShloMosaic.TcCoe Idealize.SL.Sem

/-- Both idealized programs run, end with the specification's array as their result, and leave their arguments
    unchanged. -/
theorem algebraic : Cert.algebraic_KernelIdeal_ReferenceIdeal := by
  intro m ρ m' ρ' _ hagree
  refine ⟨fun c => Cert.KernelIdeal.Hand.W5 m ρ c (Proc.devRef .tc Cert.KernelIdeal.main_v5),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_result, (hagree c).1, (hagree c).2]
  exact (Cert.KernelIdeal.HandValue.kernel_result m ρ c).symm

end Cert.Proof

end
-- ==== Proof.lean ====
/-
  Minibatch discrimination over the extended reals. For x : [256, 512] and T : [512, 128, 16] let
    M[n, o, k] = ∑ f, x[n, f] · T[f, o, k],
    d[q, p, o] = ∑ k, |M[q, o, k] − M[p, o, k]|,
    ob[q, o]   = (∑ p, exp (−d[q, p, o])) − 1;
  the result is x and ob side by side, [256, 640].

  The kernel forms M as one whole-array matrix product of x with T transposed and flattened to [512, 2048], and then,
  for each block of 128 rows q, walks over all 256 rows p eight at a time, adding exp (−d[q, p, ·]) into an
  accumulator it has zeroed, and writes the accumulator less one. The reference lays every difference
  M[q, o, k] − M[p, o, k] out as one array [256, 256, 128, 16] and reduces it axis by axis. With exact arithmetic the
  two are the same function of x and T: they differ only in the order and grouping of finite sums, and addition of
  extended reals is commutative and associative, so no finiteness of the inputs is used.

  The claims: each of the three programs terminates without a fault and leaves its two arguments unchanged (the
  kernel both as printed and idealized; the ideal pass rewrote no operation, so its preservation claim is empty);
  and the idealized kernel and the idealized reference, from memories that agree on the arguments, end with equal
  results.
-/
import proofs.«130838_j5806795784869_2_alg».proof.Defs
import proofs.«130838_j5806795784869_2_alg».proof.Proof.Gen.Kernel
import proofs.«130838_j5806795784869_2_alg».proof.Proof.Gen.KernelIdeal
import proofs.«130838_j5806795784869_2_alg».proof.Proof.Gen.ReferenceIdeal
import proofs.«130838_j5806795784869_2_alg».proof.Proof.Gen.Pre_finite_inputs
import proofs.«130838_j5806795784869_2_alg».proof.Proof.Frames
import proofs.«130838_j5806795784869_2_alg».proof.Proof.RefFrame
import proofs.«130838_j5806795784869_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_k, Frames.frame_ki, Ref.frame_ri, trivial, algebraic⟩

end Cert.Proof

end
